-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x64 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S4000x128 : Shape := ⟨2, ![4000, 128]⟩
abbrev S4000x64 : Shape := ⟨2, ![4000, 64]⟩
abbrev S3300000x64 : Shape := ⟨2, ![3300000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x64, .f32⟩
  | .hbm, ⟨75, _⟩ => ⟨S3300000x1, .f32⟩
  | .hbm, ⟨76, _⟩ => ⟨S3300000x64, .f32⟩
  | .hbm, ⟨77, _⟩ => ⟨S3300000x64, .f32⟩
  | .hbm, ⟨78, _⟩ => ⟨S_, .f32⟩
  | .hbm, ⟨79, _⟩ => ⟨S100000x64, .f32⟩
  | .hbm, ⟨80, _⟩ => ⟨S3300000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S1x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S64x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S1x64, .f32⟩
  | .local _ .vmem, ⟨18, _⟩ => ⟨S4000x64, .f32⟩
  | .local _ .vmem, ⟨19, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x128_S128x64_S4000x64_1_0_0_1_n_n_wf : DotDims.WF S4000x128 S128x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S4000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x64, .f32⟩
  | .hbm, ⟨79, _⟩ => ⟨S3300000x1, .f32⟩
  | .hbm, ⟨80, _⟩ => ⟨S3300000x64, .f32⟩
  | .hbm, ⟨81, _⟩ => ⟨S3300000x64, .f32⟩
  | .hbm, ⟨82, _⟩ => ⟨S_, .f32⟩
  | .hbm, ⟨83, _⟩ => ⟨S100000x64, .f32⟩
  | .hbm, ⟨84, _⟩ => ⟨S3300000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
import proofs.«151041_j62637803045081_1_alg».proof.Proof.Gen.KernelIdeal.Frame

/-!
# The kernel program's run, with its result named

Every weakly fair execution of the program terminates, nothing faulting; the argument arrays end as launched, and the
result buffer ends holding what the last boundary of the run's fold gives it (`W9`: the contents after the fourth
call, each call's arrays at what its write-backs leave and each stretch of host operations folded over the contents
before it).  The launch over the nine segments is the one the frame uses; the post keeps one more buffer.
-/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.KRun

end
-- ==== Proof.Stages.lean ====
import proofs.«151041_j62637803045081_1_alg».proof.Proof.Gen.KernelIdeal
import Idealize.ShloMosaic.PureOps.Ideal

/-!
# The graph side of the network: edge lists, edge weights, and sending rows along the edges

Both programs build, from the `[2, E]` table of edges, the list of source nodes and the list of target nodes (each
followed by every node once: the self loops), the weight of every edge (the product of `deg^(-1/2)` at its two ends,
`deg` the number of edges arriving at a node, the weight `0` where no edge arrives), and then, for a matrix `h` with
one row per node, the matrix whose row `v` is the sum over the edges arriving at `v` of the edge's weight times the row
of `h` at the edge's source.  The text of these steps is the same in both programs; they are named here once and are
never opened: the proof only ever says that equal inputs give equal outputs.
-/

noncomputable section

namespace Cert.KernelIdeal.Stages

open Cert.KernelIdeal Cert.KernelIdeal.Gen Idealize.ShloMosaic

/-- The contents of an array of shape `s` and element type `e` at the exact instance. -/
abbrev Arr (s : Shape) (e : EltTy) := (⟨s, e⟩ : BufTy).Contents (Elt Ideal)

/-- Row `r` of the edge table, followed by the nodes `0, 1, …` in order (one self loop per node). -/
def ends (e : Arr S2x3200000 .i32) (r : Fin 2) : Arr S3300000 .i32 :=
  match r with
  | ⟨0, _⟩ => concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0
  | ⟨1, _⟩ => concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- The source node of every edge. -/
def src (e : Arr S2x3200000 .i32) : Arr S3300000 .i32 := ends e 0
/-- The target node of every edge. -/
def dst (e : Arr S2x3200000 .i32) : Arr S3300000 .i32 := ends e 1

/-- A list of node numbers as start indices of a gather: a negative number counts from the end. -/
def wrap (v : Arr S3300000 .i32) : Arr S3300000x1 .i32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- The number of edges arriving at each node. -/
def deg (d : Arr S3300000 .i32) : FVec Ideal S100000 .f32 :=
  Host.scatterAdd (F := Ideal) scatter_S100000_S3300000x1_S3300000_n_0_0_1
    (broadcastInDim S100000 ![] bcast_S_S100000 (constant (F := Ideal) S_ .f32 0x00000000#32))
    (broadcastInDim S3300000x1 ![0] bcast_S3300000_S3300000x1_0 d)
    (broadcastInDim S3300000 ![] bcast_S_S3300000 (constant (F := Ideal) S_ .f32 0x3F800000#32))

/-- Where an edge arrives: `deg > 0`. -/
def pos (d : Arr S3300000 .i32) : Arr S100000 .i1 :=
  cmpf (F := Ideal) .ogt (deg d) (broadcastInDim S100000 ![] bcast_S_S100000 (constant (F := Ideal) S_ .f32 0x00000000#32))

/-- `deg^(-1/2)`, read where an edge arrives. -/
def rs (d : Arr S3300000 .i32) : FVec Ideal S100000 .f32 := Host.rsqrt (F := Ideal) (deg d)

/-- `deg^(-1/2)` where an edge arrives, `0` elsewhere. -/
def dinv (d : Arr S3300000 .i32) : FVec Ideal S100000 .f32 :=
  select (pos d) (rs d) (broadcastInDim S100000 ![] bcast_S_S100000 (constant (F := Ideal) S_ .f32 0x00000000#32))

/-- The weight of every edge from a per-node factor: the factor at its source times the factor at its target. -/
def nrmOf (f : FVec Ideal S100000 .f32) (s d : Arr S3300000 .i32) : FVec Ideal S3300000 .f32 :=
  mulf (F := Ideal) (Host.gather gather_S100000_S3300000x1_S3300000_n_0_n_n_0_1_1 f (wrap s))
    (Host.gather gather_S100000_S3300000x1_S3300000_n_0_n_n_0_1_1 f (wrap d))

/-- The weight of every edge: `dinv` at its source times `dinv` at its target. -/
def nrm (s d : Arr S3300000 .i32) : FVec Ideal S3300000 .f32 := nrmOf (dinv d) s d

/-- Rows sent along the edges: row `v` of the result is the sum, over the edges arriving at `v`, of the edge's
    weight times the row of `h` at the edge's source. -/
def send (s d : Arr S3300000 .i32) (w : FVec Ideal S3300000 .f32) (h : FVec Ideal S100000x64 .f32) : FVec Ideal S100000x64 .f32 :=
  Host.scatterAdd (F := Ideal) scatter_S100000x64_S3300000x1_S3300000x64_1_0_0_1
    (broadcastInDim S100000x64 ![] bcast_S_S100000x64 (constant (F := Ideal) S_ .f32 0x00000000#32))
    (broadcastInDim S3300000x1 ![0] bcast_S3300000_S3300000x1_0 d)
    (mulf (F := Ideal) (Host.gather gather_S100000x64_S3300000x1_S3300000x64_1_0_n_n_0_1_164 h (wrap s))
      (broadcastInDim S3300000x64 ![0, 1] bcast_S3300000x1_S3300000x64_0_1
        (broadcastInDim S3300000x1 ![0] bcast_S3300000_S3300000x1_0 w)))

end Cert.KernelIdeal.Stages

end
-- ==== Proof.LibConcat.lean ====
/-
  Two general tools for reading a fold of host operations when one of them is a concatenation.

  The host's concatenation takes a LIST of arrays, each paired with its shape, and its side condition (the shapes fit
  together along the axis) is stated about that list; so the list cannot be rewritten in place, and a fold of operations
  standing inside it is never read. For two arrays, `cat2` is the same concatenation as a function of the two arrays
  with the shapes fixed first, `concatenate_pair` says so, and the tactic `fold_results` reads a fold of nullary to
  ternary host operations at a buffer — each operation's result at its own buffer is its function of its operands, at
  any other buffer what was there — going through two-array concatenations by that equation.
-/
import Idealize.ShloMosaic.Lib.StableHlo.Run

noncomputable section

namespace Cert.LibConcat

open Idealize.ShloMosaic Idealize.ShloMosaic.StableHlo

variable {α : Type}

/-- The concatenation of two arrays along axis `a`, as a function of the two arrays. -/
def cat2 (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- The host's concatenation of a two-element list is `cat2` of its two arrays. -/
theorem concatenate_pair (t : Shape) (a : Fin t.rank) (s1 s2 : Shape) (x : s1.Idx → α) (y : s2.Idx → α)
    (h : Shape.Concatenates (List.map (Sigma.fst (β := fun s : Shape => s.Idx → α)) [⟨s1, x⟩, ⟨s2, y⟩]) t a) :
    concatenate t a [⟨s1, x⟩, ⟨s2, y⟩] h = cat2 t a s1 s2 h x y := rfl

/-- Reads a fold of host operations at a buffer, in one simplification pass, through two-array concatenations. -/
macro "fold_results" : tactic =>
  `(tactic| (simp (disch := decide) only [after_cons, after_nil,
      nullary_result', unary_result', binary_result', ternary_result',
      nullary_result_ne', unary_result_ne', binary_result_ne', ternary_result_ne', concatenate_pair]))

end Cert.LibConcat

end
-- ==== Proof.LibFoldCat.lean ====
/-
  Reading a fold of host operations at a buffer in one simplification pass, through two-array concatenations.

  Each operation's result at its own buffer is its function of its operands, and at any other buffer what was there;
  a concatenation of two arrays is first rewritten as a function of the two arrays (`Cert.LibConcat.concatenate_pair`),
  since the list a concatenation takes is not rewritten in place. The pass is the library's one-pass reading of a fold
  with that one equation added, so it also covers reshapes and operations of four operands.
-/
import Idealize.ShloMosaic.Lib.StableHlo.Run
import proofs.«151041_j62637803045081_1_alg».proof.Proof.LibConcat

namespace Cert.LibFoldCat

open Idealize.ShloMosaic Idealize.ShloMosaic.StableHlo

/-- Reads a fold of host operations at a buffer, going through two-array concatenations. -/
macro "fold_read" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibConcat.concatenate_pair]))

end Cert.LibFoldCat
-- ==== Proof.KHost.lean ====
import proofs.«151041_j62637803045081_1_alg».proof.Proof.Gen.KernelIdeal.Launch
import proofs.«151041_j62637803045081_1_alg».proof.Proof.Stages
import proofs.«151041_j62637803045081_1_alg».proof.Proof.LibFoldCat

/-!
# The kernel program's host operations between its four calls, read at a buffer

From any contents `V` of the buffers, one stretch of operations at a time: after the operations before the first call
the edge arrays hold the source list, the target list and the edge weights of the edge table; after the operations
between the first and the second call, and between the third and the fourth, one buffer holds the rows of the previous
call's result sent along the edges and another the bias vector as a one-row matrix; every buffer a stretch does not
write holds what it held.  Each stretch is read over contents that are variables, and the stretches are then chained.
-/

set_option maxRecDepth 16384

noncomputable section

namespace Cert.KernelIdeal.KHost

open Cert.KernelIdeal Cert.KernelIdeal.Gen Idealize.ShloMosaic Idealize.ShloMosaic.StableHlo

variable (V : Valuation τ sig (Elt Ideal))

/-! ## The first stretch: the edge lists and the degrees -/

theorem s0_src : after hostOps0 V (Proc.devRef .tc main_v3) = Stages.src (V (Proc.devRef .tc main_arg1)) := by
  fold_read
  rfl
theorem s0_dst : after hostOps0 V (Proc.devRef .tc main_v6) = Stages.dst (V (Proc.devRef .tc main_arg1)) := by
  fold_read
  rfl
theorem s0_pos : after hostOps0 V (Proc.devRef .tc main_v12) = Stages.pos (Stages.dst (V (Proc.devRef .tc main_arg1))) := by
  fold_read
  rfl
theorem s0_rs : after hostOps0 V (Proc.devRef .tc main_v13) = Stages.rs (Stages.dst (V (Proc.devRef .tc main_arg1))) := by
  fold_read
  rfl
theorem s0_zero : after hostOps0 V (Proc.devRef .tc main_cst_2) = constant (F := Ideal) S_ .f32 0x00000000#32 := by
  fold_read
theorem s0_arg0 : after hostOps0 V (Proc.devRef .tc main_arg0) = V (Proc.devRef .tc main_arg0) := by fold_read
theorem s0_arg2 : after hostOps0 V (Proc.devRef .tc main_arg2) = V (Proc.devRef .tc main_arg2) := by fold_read
theorem s0_arg3 : after hostOps0 V (Proc.devRef .tc main_arg3) = V (Proc.devRef .tc main_arg3) := by fold_read
theorem s0_arg4 : after hostOps0 V (Proc.devRef .tc main_arg4) = V (Proc.devRef .tc main_arg4) := by fold_read
theorem s0_arg5 : after hostOps0 V (Proc.devRef .tc main_arg5) = V (Proc.devRef .tc main_arg5) := by fold_read

/-! ## The second stretch: the per-node factor (a called function's three operations) -/

theorem s1_dinv : after hostOps0_1 V (Proc.devRef .tc main_v14)
    = select (V (Proc.devRef .tc main_v12)) (V (Proc.devRef .tc main_v13))
        (broadcastInDim S100000 ![] bcast_S_S100000 (V (Proc.devRef .tc main_cst_2))) := by
  fold_read
  rfl
theorem s1_v3 : after hostOps0_1 V (Proc.devRef .tc main_v3) = V (Proc.devRef .tc main_v3) := by fold_read
theorem s1_v6 : after hostOps0_1 V (Proc.devRef .tc main_v6) = V (Proc.devRef .tc main_v6) := by fold_read
theorem s1_arg0 : after hostOps0_1 V (Proc.devRef .tc main_arg0) = V (Proc.devRef .tc main_arg0) := by fold_read
theorem s1_arg2 : after hostOps0_1 V (Proc.devRef .tc main_arg2) = V (Proc.devRef .tc main_arg2) := by fold_read
theorem s1_arg3 : after hostOps0_1 V (Proc.devRef .tc main_arg3) = V (Proc.devRef .tc main_arg3) := by fold_read
theorem s1_arg4 : after hostOps0_1 V (Proc.devRef .tc main_arg4) = V (Proc.devRef .tc main_arg4) := by fold_read
theorem s1_arg5 : after hostOps0_1 V (Proc.devRef .tc main_arg5) = V (Proc.devRef .tc main_arg5) := by fold_read

/-! ## The third stretch: the edge weights -/

theorem s2_nrm : after hostOps0_2 V (Proc.devRef .tc main_v29)
    = Stages.nrmOf (V (Proc.devRef .tc main_v14)) (V (Proc.devRef .tc main_v3)) (V (Proc.devRef .tc main_v6)) := by
  fold_read
  rfl
theorem s2_v3 : after hostOps0_2 V (Proc.devRef .tc main_v3) = V (Proc.devRef .tc main_v3) := by fold_read
theorem s2_v6 : after hostOps0_2 V (Proc.devRef .tc main_v6) = V (Proc.devRef .tc main_v6) := by fold_read
theorem s2_arg0 : after hostOps0_2 V (Proc.devRef .tc main_arg0) = V (Proc.devRef .tc main_arg0) := by fold_read
theorem s2_arg2 : after hostOps0_2 V (Proc.devRef .tc main_arg2) = V (Proc.devRef .tc main_arg2) := by fold_read
theorem s2_arg3 : after hostOps0_2 V (Proc.devRef .tc main_arg3) = V (Proc.devRef .tc main_arg3) := by fold_read
theorem s2_arg4 : after hostOps0_2 V (Proc.devRef .tc main_arg4) = V (Proc.devRef .tc main_arg4) := by fold_read
theorem s2_arg5 : after hostOps0_2 V (Proc.devRef .tc main_arg5) = V (Proc.devRef .tc main_arg5) := by fold_read

/-! ## The three stretches chained: the buffers at the first call -/

/-- The buffers after every host operation before the first call. -/
abbrev pre (V : Valuation τ sig (Elt Ideal)) : Valuation τ sig (Elt Ideal) :=
  after hostOps0_2 (after hostOps0_1 (after hostOps0 V))

theorem pre_src : pre V (Proc.devRef .tc main_v3) = Stages.src (V (Proc.devRef .tc main_arg1)) := by
  unfold pre
  rw [s2_v3, s1_v3, s0_src]
theorem pre_dst : pre V (Proc.devRef .tc main_v6) = Stages.dst (V (Proc.devRef .tc main_arg1)) := by
  unfold pre
  rw [s2_v6, s1_v6, s0_dst]
theorem pre_nrm : pre V (Proc.devRef .tc main_v29)
    = Stages.nrm (Stages.src (V (Proc.devRef .tc main_arg1))) (Stages.dst (V (Proc.devRef .tc main_arg1))) := by
  unfold pre
  rw [s2_nrm, s1_dinv, s1_v3, s1_v6, s0_src, s0_dst, s0_pos, s0_rs, s0_zero]
  rfl
theorem pre_arg0 : pre V (Proc.devRef .tc main_arg0) = V (Proc.devRef .tc main_arg0) := by unfold pre; rw [s2_arg0, s1_arg0, s0_arg0]
theorem pre_arg2 : pre V (Proc.devRef .tc main_arg2) = V (Proc.devRef .tc main_arg2) := by unfold pre; rw [s2_arg2, s1_arg2, s0_arg2]
theorem pre_arg3 : pre V (Proc.devRef .tc main_arg3) = V (Proc.devRef .tc main_arg3) := by unfold pre; rw [s2_arg3, s1_arg3, s0_arg3]
theorem pre_arg4 : pre V (Proc.devRef .tc main_arg4) = V (Proc.devRef .tc main_arg4) := by unfold pre; rw [s2_arg4, s1_arg4, s0_arg4]
theorem pre_arg5 : pre V (Proc.devRef .tc main_arg5) = V (Proc.devRef .tc main_arg5) := by unfold pre; rw [s2_arg5, s1_arg5, s0_arg5]

/-! ## Between the first and the second call -/

theorem mid1_send : after hostOps1 V (Proc.devRef .tc main_v43)
    = Stages.send (V (Proc.devRef .tc main_v3)) (V (Proc.devRef .tc main_v6)) (V (Proc.devRef .tc main_v29))
        (V (Proc.devRef .tc main_v30)) := by
  fold_read
  rfl

theorem mid1_row : after hostOps1 V (Proc.devRef .tc main_v44)
    = shapeCast S1x64 (V (Proc.devRef .tc main_arg3)) shapeCasts_S64_S1x64 := by
  fold_read
  rfl

theorem mid1_v3 : after hostOps1 V (Proc.devRef .tc main_v3) = V (Proc.devRef .tc main_v3) := by fold_read
theorem mid1_v6 : after hostOps1 V (Proc.devRef .tc main_v6) = V (Proc.devRef .tc main_v6) := by fold_read
theorem mid1_v29 : after hostOps1 V (Proc.devRef .tc main_v29) = V (Proc.devRef .tc main_v29) := by fold_read
theorem mid1_arg4 : after hostOps1 V (Proc.devRef .tc main_arg4) = V (Proc.devRef .tc main_arg4) := by fold_read
theorem mid1_arg5 : after hostOps1 V (Proc.devRef .tc main_arg5) = V (Proc.devRef .tc main_arg5) := by fold_read

/-! ## Between the third and the fourth call -/

theorem mid3_send : after hostOps3 V (Proc.devRef .tc main_v59)
    = Stages.send (V (Proc.devRef .tc main_v3)) (V (Proc.devRef .tc main_v6)) (V (Proc.devRef .tc main_v29))
        (V (Proc.devRef .tc main_v46)) := by
  fold_read
  rfl

theorem mid3_row : after hostOps3 V (Proc.devRef .tc main_v60)
    = shapeCast S1x64 (V (Proc.devRef .tc main_arg5)) shapeCasts_S64_S1x64 := by
  fold_read
  rfl

end Cert.KernelIdeal.KHost

end
-- ==== Proof.LibAffine.lean ====
import Idealize.ShloMosaic.Lib.ValueIdx
import Idealize.ShloMosaic.Lib.Pipeline.Value
import Idealize.ShloMosaic.Lib.KernelVsHost
import Idealize.ShloMosaic.PureOps.Ideal.Laws

/-!
# An affine layer and a biased rectifier, row by row, at the exact extended reals

For a matrix `X` of `m` rows and `k` columns, a matrix `W` of `k` rows and `n` columns and a one-row matrix `Y`
of `n` entries, the affine layer is `(r, j) ↦ (∑ c, X (r, c) · W (c, j)) + Y (0, j)`; the biased rectifier is
`(r, j) ↦ max (X (r, j) + Y (0, j)) 0`.  Both are stated here as functions of whole arrays, together with their
spellings by the host's operations (a contraction, a broadcast of the row along both axes, a sum, a maximum with the
zero array), and with the fact that adding the zero row changes nothing: `x + 0 = x` for every extended real, the
infinities included.
-/

noncomputable section

namespace Cert.LibAffine

open Idealize.ShloMosaic Idealize.ShloMosaic.ValueIdx

variable {m k n : ℕ}

/-- The host's contraction of the second axis of `A` with the first of `B`, read at `(a, b)`: the sum over the
    contracted coordinate of the products of the entries. -/
theorem hostDot_plain_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The affine layer: row `r` of `X` against column `j` of `W`, plus entry `j` of the row `Y`. -/
def affine (X : (⟨2, ![m, k]⟩ : Shape).Idx → EReal) (W : (⟨2, ![k, n]⟩ : Shape).Idx → EReal)
    (Y : (⟨2, ![1, n]⟩ : Shape).Idx → EReal) : (⟨2, ![m, n]⟩ : Shape).Idx → EReal :=
  fun i => (∑ c : Fin k, X (ix2 (i 0) c) * W (ix2 c (i 1))) + Y (ix2 (0 : Fin 1) (i 1))

theorem affine_apply (X : (⟨2, ![m, k]⟩ : Shape).Idx → EReal) (W : (⟨2, ![k, n]⟩ : Shape).Idx → EReal)
    (Y : (⟨2, ![1, n]⟩ : Shape).Idx → EReal) (p : Fin m) (q : Fin n) :
    affine X W Y (ix2 p q) = (∑ c : Fin k, X (ix2 p c) * W (ix2 c q)) + Y (ix2 (0 : Fin 1) q) := rfl

/-- The biased rectifier: entry `(r, j)` of `X` plus entry `j` of the row `Y`, or zero if that is larger. -/
def biasRelu (X : (⟨2, ![m, n]⟩ : Shape).Idx → EReal) (Y : (⟨2, ![1, n]⟩ : Shape).Idx → EReal) :
    (⟨2, ![m, n]⟩ : Shape).Idx → EReal :=
  fun i => max (X i + Y (ix2 (0 : Fin 1) (i 1))) 0

theorem biasRelu_apply (X : (⟨2, ![m, n]⟩ : Shape).Idx → EReal) (Y : (⟨2, ![1, n]⟩ : Shape).Idx → EReal)
    (p : Fin m) (q : Fin n) : biasRelu X Y (ix2 p q) = max (X (ix2 p q) + Y (ix2 (0 : Fin 1) q)) 0 := rfl

/-- The affine layer in the host's spelling: the contraction, plus the row laid down every row. -/
theorem affine_eq_host
    (w : DotDims.WF ⟨2, ![m, k]⟩ ⟨2, ![k, n]⟩ ⟨2, ![m, n]⟩ [1] [0] [0] [1] [] [])
    (prec : Option ContractPrecision)
    (hd : (⟨2, ![1, n]⟩ : Shape).BroadcastsInDim ⟨2, ![m, n]⟩ ![0, 1])
    (X : FVec Ideal ⟨2, ![m, k]⟩ .f32) (W : FVec Ideal ⟨2, ![k, n]⟩ .f32) (Y : FVec Ideal ⟨2, ![1, n]⟩ .f32) :
    affine X W Y
      = addf (Host.dotGeneral (⟨[1], [0], [0], [1], [], [], w⟩ : DotDims _ _ _) prec X W)
          (broadcastInDim ⟨2, ![m, n]⟩ ![0, 1] hd Y) := by
  funext i
  obtain ⟨p, q, rfl⟩ : ∃ (p : Fin m) (q : Fin n), i = ix2 p q := ⟨i 0, i 1, eq_ix2 i⟩
  show _ = FloatOps.addf (Host.dotGeneral _ prec X W (ix2 p q)) (broadcastInDim _ ![0, 1] hd Y (ix2 p q))
  rw [hostDot_plain_apply, broadcastInDim_oneRow_apply]
  rfl

/-- The zero row adds nothing: the affine layer with the zero row is the contraction alone. -/
theorem affine_zero_eq_host
    (w : DotDims.WF ⟨2, ![m, k]⟩ ⟨2, ![k, n]⟩ ⟨2, ![m, n]⟩ [1] [0] [0] [1] [] [])
    (prec : Option ContractPrecision)
    (X : FVec Ideal ⟨2, ![m, k]⟩ .f32) (W : FVec Ideal ⟨2, ![k, n]⟩ .f32) (Y : FVec Ideal ⟨2, ![1, n]⟩ .f32)
    (hY : ∀ j, Y j = 0) :
    affine X W Y = Host.dotGeneral (⟨[1], [0], [0], [1], [], [], w⟩ : DotDims _ _ _) prec X W := by
  funext i
  obtain ⟨p, q, rfl⟩ : ∃ (p : Fin m) (q : Fin n), i = ix2 p q := ⟨i 0, i 1, eq_ix2 i⟩
  rw [hostDot_plain_apply, affine_apply, hY, add_zero]

/-- The biased rectifier in the host's spelling: the sum with the row laid down every row, then the maximum with the
    zero array. -/
theorem biasRelu_eq_host
    (hd : (⟨2, ![1, n]⟩ : Shape).BroadcastsInDim ⟨2, ![m, n]⟩ ![0, 1])
    (hz : (⟨0, ![]⟩ : Shape).BroadcastsInDim ⟨2, ![m, n]⟩ ![])
    (X : FVec Ideal ⟨2, ![m, n]⟩ .f32) (Y : FVec Ideal ⟨2, ![1, n]⟩ .f32) :
    biasRelu X Y
      = maximumf (addf X (broadcastInDim ⟨2, ![m, n]⟩ ![0, 1] hd Y))
          (broadcastInDim ⟨2, ![m, n]⟩ ![] hz (constant ⟨0, ![]⟩ .f32 0x00000000#32)) := by
  funext i
  obtain ⟨p, q, rfl⟩ : ∃ (p : Fin m) (q : Fin n), i = ix2 p q := ⟨i 0, i 1, eq_ix2 i⟩
  show _ = FloatOps.maximumf (FloatOps.addf (X (ix2 p q)) (broadcastInDim _ ![0, 1] hd Y (ix2 p q)))
    (broadcastInDim _ ![] hz (constant ⟨0, ![]⟩ .f32 0x00000000#32) (ix2 p q))
  rw [broadcastInDim_oneRow_apply, broadcastInDim_apply ![] hz _ (ix2 p q) ix0 (fun a => a.elim0)]
  show _ = max (X (ix2 p q) + Y (ix2 (0 : Fin 1) q)) (Ideal.ofBits .f32 0x00000000#32)
  rw [Ideal.ofBits_zero_f32]
  rfl

end Cert.LibAffine

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibRows.lean ====
/-
  A row vector laid along the rows of a matrix, in the two spellings a kernel and a host program give it.

  A vector `x` of `n` entries becomes the one-row matrix `y` with `y (0, j) = x j` either by a reshape or by a
  broadcast along axis 1: the two are one function (`shapeCast_row_eq_broadcastInDim`).  A one-row matrix `y` is laid
  down `m` rows, `(r, j) ↦ y (0, j)`, either by a broadcast of the vector (preceded by a cast of the one-row matrix to
  its own shape) or by a broadcast along both axes: again one function (`broadcastTo_oneRow_eq_broadcastInDim`).
-/
import Idealize.ShloMosaic.Lib.Pipeline.Value
import Idealize.ShloMosaic.Lib.ValueIdx
import Idealize.ShloMosaic.Lib.KernelVsHost

namespace Cert.LibRows

open Idealize.ShloMosaic Idealize.ShloMosaic.ValueIdx

variable {α : Type}

/-- A vector read as a one-row matrix: the reshape `[n] → [1, n]` and the broadcast along axis 1 both put entry `j`
    at `(0, j)`. -/
theorem shapeCast_row_eq_broadcastInDim {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val < 1 := (i 0).isLt
  have e2 := shapeCast_apply x h1 i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have e : (i 1).val < n := (i 1).isLt; omega
      · rfl)
  exact e2.trans e3.symm

/-- The kernel's broadcast of a one-row matrix (cast to its own shape first) down `m` rows, read at `(r, j)`: the
    row's entry `(0, j)`. -/
theorem broadcastTo_oneRow_apply {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ y hs) hb (ix2 p q) = y (ix2 (0 : Fin 1) q) := by
  rw [shapeCast_self]
  refine broadcastTo_apply y hb _ (ix2 (0 : Fin 1) q) ?_
  intro a
  match a with
  | ⟨0, _⟩ => rfl
  | ⟨1, _⟩ =>
    show q.val = if n = 1 then 0 else q.val
    split
    · have e : q.val < n := q.isLt; omega
    · rfl

/-- A one-row matrix laid down `m` rows: the kernel's broadcast of its same-shape cast is the host's broadcast along
    both axes; at `(r, j)` both read `y (0, j)`. -/
theorem broadcastTo_oneRow_eq_broadcastInDim {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ (shapeCast ⟨2, ![1, n]⟩ y hs) hb = broadcastInDim ⟨2, ![m, n]⟩ ![0, 1] hd y := by
  funext i
  obtain ⟨p, q, rfl⟩ : ∃ (p : Fin m) (q : Fin n), i = ix2 p q := ⟨i 0, i 1, eq_ix2 i⟩
  rw [broadcastInDim_oneRow_apply, broadcastTo_oneRow_apply]

end Cert.LibRows
-- ==== Proof.Spec.lean ====
import proofs.«151041_j62637803045081_1_alg».proof.Proof.LibAffine
import proofs.«151041_j62637803045081_1_alg».proof.Proof.LibDotIdx
import proofs.«151041_j62637803045081_1_alg».proof.Proof.LibRows

/-!
# One graph-convolution layer, as whole-array functions on the extended reals

A layer takes node features `X` (one row per node), multiplies them by a weight matrix (`dense`), sends every
row along the edges of the graph with a weight per edge and adds what arrives at each node (that step is the same
text in both programs and is never opened), then adds a bias row and keeps the positive part (`biasRelu`, from the
affine-layer library).  Here: the product `dense`, that it is the host's contraction, that the blockwise product of a
row block with the whole weight matrix is `dense` read on the block's rows, and the two one-row forms of a bias vector.
-/

noncomputable section

namespace Cert.Spec

open Idealize.ShloMosaic Idealize.ShloMosaic.ValueIdx

variable {m k n : ℕ}

/-- The product of a matrix of `m` rows and `k` columns with one of `k` rows and `n` columns: entry `(r, j)` is the
    sum over `c` of `X (r, c) · W (c, j)`. -/
def dense (X : (⟨2, ![m, k]⟩ : Shape).Idx → EReal) (W : (⟨2, ![k, n]⟩ : Shape).Idx → EReal) :
    (⟨2, ![m, n]⟩ : Shape).Idx → EReal :=
  fun i => ∑ c : Fin k, X (ix2 (i 0) c) * W (ix2 c (i 1))

theorem dense_apply (X : (⟨2, ![m, k]⟩ : Shape).Idx → EReal) (W : (⟨2, ![k, n]⟩ : Shape).Idx → EReal)
    (p : Fin m) (q : Fin n) : dense X W (ix2 p q) = ∑ c : Fin k, X (ix2 p c) * W (ix2 c q) := rfl

/-- The product is the host's contraction of the second axis of `X` with the first of `W`. -/
theorem dense_eq_hostDot
    (w : DotDims.WF ⟨2, ![m, k]⟩ ⟨2, ![k, n]⟩ ⟨2, ![m, n]⟩ [1] [0] [0] [1] [] [])
    (prec : Option ContractPrecision) (X : FVec Ideal ⟨2, ![m, k]⟩ .f32) (W : FVec Ideal ⟨2, ![k, n]⟩ .f32) :
    dense X W = Host.dotGeneral (⟨[1], [0], [0], [1], [], [], w⟩ : DotDims _ _ _) prec X W := by
  funext i
  obtain ⟨p, q, rfl⟩ : ∃ (p : Fin m) (q : Fin n), i = ix2 p q := ⟨i 0, i 1, eq_ix2 i⟩
  rw [Cert.LibAffine.hostDot_plain_apply]
  rfl

end Cert.Spec

end
-- ==== Proof.Region0.lean ====
import proofs.«151041_j62637803045081_1_alg».proof.Proof.Gen.KernelIdeal.Frame
import proofs.«151041_j62637803045081_1_alg».proof.Proof.Spec
import Idealize.ShloMosaic.Lib.Pipeline.Value
import Idealize.ShloMosaic.Lib.ValueIdx

/-!
# Region0: a product of row blocks

The call multiplies a matrix of 100000 rows, 4000 rows at a time, by the whole weight matrix: at grid point `t` the
body reads rows `4000 t … 4000 t + 3999` of the left matrix and all of the right one, and writes their product (the
accumulator starts at zero; rounding the operands to a narrower format is the identity on exact values) to the same
rows of the result.  Entry `(p, q)` of that block is the sum over `c` of left `(4000 t + p, c)` times right `(c, q)`,
which is entry `(4000 t + p, q)` of the whole product; the 25 blocks cover the result, so the result array ends as
the whole product of the two arrays the call found — whatever those are (`V` is a parameter).
-/

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at `(p, q)`: the sum over the contracted coordinate. -/
theorem pay_apply (x0 : Vec Ideal S4000x128 .f32) (x1 : Vec Ideal S128x64 .f32) (p : Fin 4000) (q : Fin 64) :
    k0_pay1 (F := Ideal) x0 x1 (ix2 p q) = ∑ c : Fin 128, x0 (ix2 p c) * x1 (ix2 c q) := by
  unfold k0_pay1
  exact DotIdx.matmul_plain_zero_apply dot_S4000x128_S128x64_S4000x64_1_0_0_1_n_n_wf none _ _ p q

/-- The printed index maps over the grid: the left matrix and the result move one block of rows per point, the weight
    matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 25 :=
  (by decide +kernel : ∀ t : Fin grid0.N, _)

/-- The left block at point `t`, read at `(p, k)`: the array's entry `(4000 t + p, k)`, named by its coordinates. -/
theorem left_apply (c : Dev nD) (t : Fin cfg0.N) (p : Fin 4000) (k : Fin 128) (i : S100000x128.Idx)
    (h0 : (i 0).val = t.val * 4000 + p.val) (h1 : (i 1).val = k.val) :
    (iblk0 V c 0 t : Vec Ideal S4000x128 .f32) (ix2 p k) = (V c main_arg0 : S100000x128.Idx → EReal) i := by
  obtain ⟨e0, e1, -, -, -, -, -⟩ := idx_facts t
  unfold iblk0
  rw [View.read_apply]
  show V c main_arg0 _ = V c main_arg0 _
  congr 1
  funext a
  apply Fin.ext
  match a with
  | ⟨0, _⟩ => show win0_0.index t (0 : Fin 2) * 4000 + 1 * p.val = (i 0).val; rw [e0, h0]; omega
  | ⟨1, _⟩ => show win0_0.index t (1 : Fin 2) * 128 + 1 * k.val = (i 1).val; rw [e1, h1]; omega

/-- The weight block at any point is the whole weight matrix. -/
theorem right_apply (c : Dev nD) (t : Fin cfg0.N) (k : Fin 128) (q : Fin 64) :
    (iblk0 V c 1 t : Vec Ideal S128x64 .f32) (ix2 k q) = (V c main_arg2 : S128x64.Idx → EReal) (ix2 k q) := by
  obtain ⟨-, -, e0, e1, -, -, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- What the body leaves at `(p, q)` of its block is the whole product's entry at that block position. -/
theorem point_eq (c : Dev nD) (t : Fin cfg0.N) (j : S4000x64.Idx) :
    k0_pay1 (F := Ideal) (iblk0 V c 0 t) (iblk0 V c 1 t) j
      = Cert.Spec.dense (V c main_arg0 : S100000x128.Idx → EReal) (V c main_arg2 : S128x64.Idx → EReal)
          (((cfg0.win 2).blk t).view.emb j) := by
  obtain ⟨p, q, rfl⟩ : ∃ (p : Fin 4000) (q : Fin 64), j = ix2 p q := ⟨j 0, j 1, eq_ix2 j⟩
  obtain ⟨-, -, -, -, e0, e1, ht⟩ := idx_facts t
  refine (pay_apply (iblk0 V c 0 t) (iblk0 V c 1 t) p q).trans ?_
  have hr : ((((cfg0.win 2).blk t).view.emb (ix2 p q) : S100000x64.Idx) 0).val = t.val * 4000 + p.val := by
    show win0_2.index t (0 : Fin 2) * 4000 + 1 * p.val = _; rw [e0]; omega
  have hc : ((((cfg0.win 2).blk t).view.emb (ix2 p q) : S100000x64.Idx) 1).val = q.val := by
    show win0_2.index t (1 : Fin 2) * 64 + 1 * q.val = _; rw [e1]; omega
  have hi : (((cfg0.win 2).blk t).view.emb (ix2 p q) : S100000x64.Idx)
      = ix2 (⟨t.val * 4000 + p.val, by have := p.isLt; omega⟩ : Fin 100000) q :=
    funext fun a => Fin.ext (by
      match a with
      | ⟨0, _⟩ => exact hr
      | ⟨1, _⟩ => exact hc)
  rw [hi, Cert.Spec.dense_apply]
  refine Finset.sum_congr rfl fun k _ => ?_
  rw [left_apply V c t p k (ix2 (⟨t.val * 4000 + p.val, by have := p.isLt; omega⟩ : Fin 100000) k) rfl rfl,
    right_apply V c t k q]

/-- What point `t` writes back is block `t` of the whole product. -/
theorem flushed_eq (c : Dev nD) (t : Fin cfg0.N) :
    (dat0 V c).flushed 2 t = ((cfg0.win 2).blk t).view.read (Elt Ideal)
      (Cert.Spec.dense (V c main_arg0 : S100000x128.Idx → EReal) (V c main_arg2 : S128x64.Idx → EReal)) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x64) hz]
  funext j
  exact point_eq V c t j

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v30).slice (win0_2.rect t)).set ↔ _
  rw [View.set_slice_whole, Rect.mem_set_unit]
  exact Iff.rfl

/-- Every block of rows is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- The result array after the call: the whole product of the two arrays the call found. -/
theorem out (c : Dev nD) : (dat0 V c).arrAt 2 cfg0.N
    = Cert.Spec.dense (V c main_arg0 : S100000x128.Idx → EReal) (V c main_arg2 : S128x64.Idx → EReal) :=
  (dat0 V c).arrAt_eq_of_cover 2 _ (fun t _ => flushed_eq V c t) fun i => by
    have hi0 : (i 0).val < 100000 := (i 0).isLt
    have hi1 : (i 1).val < 64 := (i 1).isLt
    obtain ⟨t, ht⟩ := idx_onto ⟨(i 0).val / 4000, by omega⟩
    have q0 : win0_2.index t (0 : Fin 2) = (i 0).val / 4000 := congrFun ht 0
    have q1 : win0_2.index t (1 : Fin 2) = 0 := congrFun ht 1
    refine ⟨t, flush0_2 t, ?_⟩
    rw [mem_blk]
    intro a
    match a with
    | ⟨0, _⟩ => show win0_2.index t (0 : Fin 2) * 4000 ≤ (i 0).val ∧ (i 0).val < win0_2.index t (0 : Fin 2) * 4000 + 4000; omega
    | ⟨1, _⟩ => show win0_2.index t (1 : Fin 2) * 64 ≤ (i 1).val ∧ (i 1).val < win0_2.index t (1 : Fin 2) * 64 + 64; omega

end Cert.KernelIdeal.Region0

end
-- ==== Proof.Region1.lean ====
import proofs.«151041_j62637803045081_1_alg».proof.Proof.Gen.KernelIdeal.Frame
import proofs.«151041_j62637803045081_1_alg».proof.Proof.Spec
import Idealize.ShloMosaic.Lib.Pipeline.Value
import Idealize.ShloMosaic.Lib.ValueIdx

/-!
# Region1: a bias row added and the positive part kept, 4000 rows at a time

At grid point `t` the body reads rows `4000 t … 4000 t + 3999` of the matrix and the one-row bias matrix, adds the
bias row to every row and keeps the larger of each entry and zero, and writes the block to the same rows of the
result.  Entry `(p, q)` of the block is `max (X (4000 t + p, q) + Y (0, q)) 0`, the biased rectifier of the whole
arrays at that position; the 25 blocks cover the result, so the result array ends as the biased rectifier of the two
arrays the call found — whatever those are (`V` is a parameter).
-/

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at `(p, q)`: the entry plus the bias row's entry `q`, or zero if that is larger. -/
theorem pay_apply (x0 : Vec Ideal S4000x64 .f32) (x1 : Vec Ideal S1x64 .f32) (p : Fin 4000) (q : Fin 64) :
    k1_pay1 (F := Ideal) x0 x1 (ix2 p q) = max (x0 (ix2 p q) + x1 (ix2 (0 : Fin 1) q)) 0 := by
  unfold k1_pay1
  show max ((shapeCast S4000x64 x0 shapeCasts_S4000x64_S4000x64) (ix2 p q)
      + (broadcastTo S4000x64 (shapeCast S1x64 x1 shapeCasts_S1x64_S1x64) broadcasts_S1x64_S4000x64) (ix2 p q))
    (Ideal.ofBits .f32 0x00000000#32) = _
  rw [shapeCast_self, Cert.LibRows.broadcastTo_oneRow_apply, Ideal.ofBits_zero_f32]

/-- The printed index maps over the grid: the matrix and the result move one block of rows per point, the bias row
    stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 25 :=
  (by decide +kernel : ∀ t : Fin grid1.N, _)

/-- The matrix block at point `t`, read at `(p, k)`: the array's entry `(4000 t + p, k)`, named by its coordinates. -/
theorem left_apply (c : Dev nD) (t : Fin cfg1.N) (p : Fin 4000) (k : Fin 64) (i : S100000x64.Idx)
    (h0 : (i 0).val = t.val * 4000 + p.val) (h1 : (i 1).val = k.val) :
    (iblk1 V c 0 t : Vec Ideal S4000x64 .f32) (ix2 p k) = (V c main_v43 : S100000x64.Idx → EReal) i := by
  obtain ⟨e0, e1, -, -, -, -, -⟩ := idx_facts t
  unfold iblk1
  rw [View.read_apply]
  show V c main_v43 _ = V c main_v43 _
  congr 1
  funext a
  apply Fin.ext
  match a with
  | ⟨0, _⟩ => show win1_0.index t (0 : Fin 2) * 4000 + 1 * p.val = (i 0).val; rw [e0, h0]; omega
  | ⟨1, _⟩ => show win1_0.index t (1 : Fin 2) * 64 + 1 * k.val = (i 1).val; rw [e1, h1]; omega

/-- The bias block at any point is the whole one-row matrix. -/
theorem row_apply (c : Dev nD) (t : Fin cfg1.N) (q : Fin 64) :
    (iblk1 V c 1 t : Vec Ideal S1x64 .f32) (ix2 (0 : Fin 1) q) = (V c main_v44 : S1x64.Idx → EReal) (ix2 (0 : Fin 1) q) := by
  obtain ⟨-, -, e0, e1, -, -, -⟩ := idx_facts t
  unfold iblk1
  rw [View.read_apply]
  show V c main_v44 _ = V c main_v44 _
  congr 1
  funext a
  apply Fin.ext
  match a with
  | ⟨0, _⟩ => show win1_1.index t (0 : Fin 2) * 1 + 1 * 0 = 0; rw [e0]
  | ⟨1, _⟩ => show win1_1.index t (1 : Fin 2) * 64 + 1 * q.val = q.val; rw [e1]; omega

/-- What the body leaves at `(p, q)` of its block is the biased rectifier's entry at that block position. -/
theorem point_eq (c : Dev nD) (t : Fin cfg1.N) (j : S4000x64.Idx) :
    k1_pay1 (F := Ideal) (iblk1 V c 0 t) (iblk1 V c 1 t) j
      = Cert.LibAffine.biasRelu (V c main_v43 : S100000x64.Idx → EReal) (V c main_v44 : S1x64.Idx → EReal)
          (((cfg1.win 2).blk t).view.emb j) := by
  obtain ⟨p, q, rfl⟩ : ∃ (p : Fin 4000) (q : Fin 64), j = ix2 p q := ⟨j 0, j 1, eq_ix2 j⟩
  obtain ⟨-, -, -, -, e0, e1, ht⟩ := idx_facts t
  refine (pay_apply (iblk1 V c 0 t) (iblk1 V c 1 t) p q).trans ?_
  have hr : ((((cfg1.win 2).blk t).view.emb (ix2 p q) : S100000x64.Idx) 0).val = t.val * 4000 + p.val := by
    show win1_2.index t (0 : Fin 2) * 4000 + 1 * p.val = _; rw [e0]; omega
  have hc : ((((cfg1.win 2).blk t).view.emb (ix2 p q) : S100000x64.Idx) 1).val = q.val := by
    show win1_2.index t (1 : Fin 2) * 64 + 1 * q.val = _; rw [e1]; omega
  have hi : (((cfg1.win 2).blk t).view.emb (ix2 p q) : S100000x64.Idx)
      = ix2 (⟨t.val * 4000 + p.val, by have := p.isLt; omega⟩ : Fin 100000) q :=
    funext fun a => Fin.ext (by
      match a with
      | ⟨0, _⟩ => exact hr
      | ⟨1, _⟩ => exact hc)
  rw [hi, Cert.LibAffine.biasRelu_apply,
    left_apply V c t p q (ix2 (⟨t.val * 4000 + p.val, by have := p.isLt; omega⟩ : Fin 100000) q) rfl rfl,
    row_apply V c t q]

/-- What point `t` writes back is block `t` of the biased rectifier. -/
theorem flushed_eq (c : Dev nD) (t : Fin cfg1.N) :
    (dat1 V c).flushed 2 t = ((cfg1.win 2).blk t).view.read (Elt Ideal)
      (Cert.LibAffine.biasRelu (V c main_v43 : S100000x64.Idx → EReal) (V c main_v44 : S1x64.Idx → EReal)) := by
  show (cfg1.win 2).cut (grid1.coords t) ((dat1 V c).after 2 t) = _
  rw [after1_2]
  unfold out1_2
  rw [View.canon_unit_zero hz]
  simp only [View.ld_unit_zero (S := S4000x64) hz, View.ld_unit_zero (S := S1x64) hz]
  funext j
  exact point_eq V c t j

/-- An index of the result is in point `t`'s block iff each coordinate is in the block's range on its axis. -/
theorem mem_blk (t : Fin cfg1.N) (i : S100000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v45).slice (win1_2.rect t)).set ↔ _
  rw [View.set_slice_whole, Rect.mem_set_unit]
  exact Iff.rfl

/-- Every block of rows is some point's. -/
theorem idx_onto : ∀ q0 : Fin 25, ∃ t : Fin cfg1.N, win1_2.index t = ![q0.val, 0] :=
  (by decide +kernel : ∀ q0 : Fin 25, ∃ t : Fin grid1.N, win1_2.index t = ![q0.val, 0])

/-- The result array after the call: the biased rectifier of the two arrays the call found. -/
theorem out (c : Dev nD) : (dat1 V c).arrAt 2 cfg1.N
    = Cert.LibAffine.biasRelu (V c main_v43 : S100000x64.Idx → EReal) (V c main_v44 : S1x64.Idx → EReal) :=
  (dat1 V c).arrAt_eq_of_cover 2 _ (fun t _ => flushed_eq V c t) fun i => by
    have hi0 : (i 0).val < 100000 := (i 0).isLt
    have hi1 : (i 1).val < 64 := (i 1).isLt
    obtain ⟨t, ht⟩ := idx_onto ⟨(i 0).val / 4000, by omega⟩
    have q0 : win1_2.index t (0 : Fin 2) = (i 0).val / 4000 := congrFun ht 0
    have q1 : win1_2.index t (1 : Fin 2) = 0 := congrFun ht 1
    refine ⟨t, flush1_2 t, ?_⟩
    rw [mem_blk]
    intro a
    match a with
    | ⟨0, _⟩ => show win1_2.index t (0 : Fin 2) * 4000 ≤ (i 0).val ∧ (i 0).val < win1_2.index t (0 : Fin 2) * 4000 + 4000; omega
    | ⟨1, _⟩ => show win1_2.index t (1 : Fin 2) * 64 ≤ (i 1).val ∧ (i 1).val < win1_2.index t (1 : Fin 2) * 64 + 64; omega

end Cert.KernelIdeal.Region1

end
-- ==== Proof.Region2.lean ====
import proofs.«151041_j62637803045081_1_alg».proof.Proof.Gen.KernelIdeal.Frame
import proofs.«151041_j62637803045081_1_alg».proof.Proof.Spec
import Idealize.ShloMosaic.Lib.Pipeline.Value
import Idealize.ShloMosaic.Lib.ValueIdx

/-!
# Region2: a product of row blocks

The call multiplies a matrix of 100000 rows, 4000 rows at a time, by the whole weight matrix: at grid point `t` the
body reads rows `4000 t … 4000 t + 3999` of the left matrix and all of the right one, and writes their product (the
accumulator starts at zero; rounding the operands to a narrower format is the identity on exact values, and so is
the cast of the left block to its own shape) to the same
rows of the result.  Entry `(p, q)` of that block is the sum over `c` of left `(4000 t + p, c)` times right `(c, q)`,
which is entry `(4000 t + p, q)` of the whole product; the 25 blocks cover the result, so the result array ends as
the whole product of the two arrays the call found — whatever those are (`V` is a parameter).
-/

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at `(p, q)`: the sum over the contracted coordinate. -/
theorem pay_apply (x0 : Vec Ideal S4000x64 .f32) (x1 : Vec Ideal S64x64 .f32) (p : Fin 4000) (q : Fin 64) :
    k2_pay1 (F := Ideal) x0 x1 (ix2 p q) = ∑ c : Fin 64, x0 (ix2 p c) * x1 (ix2 c q) := by
  unfold k2_pay1
  rw [shapeCast_self]
  exact DotIdx.matmul_plain_zero_apply dot_S4000x64_S64x64_S4000x64_1_0_0_1_n_n_wf none _ _ p q

/-- The printed index maps over the grid: the left matrix and the result move one block of rows per point, the weight
    matrix stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 25 :=
  (by decide +kernel : ∀ t : Fin grid2.N, _)

/-- The left block at point `t`, read at `(p, k)`: the array's entry `(4000 t + p, k)`, named by its coordinates. -/
theorem left_apply (c : Dev nD) (t : Fin cfg2.N) (p : Fin 4000) (k : Fin 64) (i : S100000x64.Idx)
    (h0 : (i 0).val = t.val * 4000 + p.val) (h1 : (i 1).val = k.val) :
    (iblk2 V c 0 t : Vec Ideal S4000x64 .f32) (ix2 p k) = (V c main_v45 : S100000x64.Idx → EReal) i := by
  obtain ⟨e0, e1, -, -, -, -, -⟩ := idx_facts t
  unfold iblk2
  rw [View.read_apply]
  show V c main_v45 _ = V c main_v45 _
  congr 1
  funext a
  apply Fin.ext
  match a with
  | ⟨0, _⟩ => show win2_0.index t (0 : Fin 2) * 4000 + 1 * p.val = (i 0).val; rw [e0, h0]; omega
  | ⟨1, _⟩ => show win2_0.index t (1 : Fin 2) * 64 + 1 * k.val = (i 1).val; rw [e1, h1]; omega

/-- The weight block at any point is the whole weight matrix. -/
theorem right_apply (c : Dev nD) (t : Fin cfg2.N) (k : Fin 64) (q : Fin 64) :
    (iblk2 V c 1 t : Vec Ideal S64x64 .f32) (ix2 k q) = (V c main_arg4 : S64x64.Idx → EReal) (ix2 k q) := by
  obtain ⟨-, -, e0, e1, -, -, -⟩ := idx_facts t
  unfold iblk2
  rw [View.read_apply]
  show V c main_arg4 _ = V c main_arg4 _
  congr 1
  funext a
  apply Fin.ext
  match a with
  | ⟨0, _⟩ => show win2_1.index t (0 : Fin 2) * 64 + 1 * k.val = k.val; rw [e0]; omega
  | ⟨1, _⟩ => show win2_1.index t (1 : Fin 2) * 64 + 1 * q.val = q.val; rw [e1]; omega

/-- What the body leaves at `(p, q)` of its block is the whole product's entry at that block position. -/
theorem point_eq (c : Dev nD) (t : Fin cfg2.N) (j : S4000x64.Idx) :
    k2_pay1 (F := Ideal) (iblk2 V c 0 t) (iblk2 V c 1 t) j
      = Cert.Spec.dense (V c main_v45 : S100000x64.Idx → EReal) (V c main_arg4 : S64x64.Idx → EReal)
          (((cfg2.win 2).blk t).view.emb j) := by
  obtain ⟨p, q, rfl⟩ : ∃ (p : Fin 4000) (q : Fin 64), j = ix2 p q := ⟨j 0, j 1, eq_ix2 j⟩
  obtain ⟨-, -, -, -, e0, e1, ht⟩ := idx_facts t
  refine (pay_apply (iblk2 V c 0 t) (iblk2 V c 1 t) p q).trans ?_
  have hr : ((((cfg2.win 2).blk t).view.emb (ix2 p q) : S100000x64.Idx) 0).val = t.val * 4000 + p.val := by
    show win2_2.index t (0 : Fin 2) * 4000 + 1 * p.val = _; rw [e0]; omega
  have hc : ((((cfg2.win 2).blk t).view.emb (ix2 p q) : S100000x64.Idx) 1).val = q.val := by
    show win2_2.index t (1 : Fin 2) * 64 + 1 * q.val = _; rw [e1]; omega
  have hi : (((cfg2.win 2).blk t).view.emb (ix2 p q) : S100000x64.Idx)
      = ix2 (⟨t.val * 4000 + p.val, by have := p.isLt; omega⟩ : Fin 100000) q :=
    funext fun a => Fin.ext (by
      match a with
      | ⟨0, _⟩ => exact hr
      | ⟨1, _⟩ => exact hc)
  rw [hi, Cert.Spec.dense_apply]
  refine Finset.sum_congr rfl fun k _ => ?_
  rw [left_apply V c t p k (ix2 (⟨t.val * 4000 + p.val, by have := p.isLt; omega⟩ : Fin 100000) k) rfl rfl,
    right_apply V c t k q]

/-- What point `t` writes back is block `t` of the whole product. -/
theorem flushed_eq (c : Dev nD) (t : Fin cfg2.N) :
    (dat2 V c).flushed 2 t = ((cfg2.win 2).blk t).view.read (Elt Ideal)
      (Cert.Spec.dense (V c main_v45 : S100000x64.Idx → EReal) (V c main_arg4 : S64x64.Idx → EReal)) := by
  show (cfg2.win 2).cut (grid2.coords t) ((dat2 V c).after 2 t) = _
  rw [after2_2]
  unfold out2_2
  rw [View.canon_unit_zero hz]
  simp only [View.ld_unit_zero (S := S4000x64) hz, View.ld_unit_zero (S := S64x64) hz]
  funext j
  exact point_eq V c t j

/-- An index of the result is in point `t`'s block iff each coordinate is in the block's range on its axis. -/
theorem mem_blk (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v46).slice (win2_2.rect t)).set ↔ _
  rw [View.set_slice_whole, Rect.mem_set_unit]
  exact Iff.rfl

/-- Every block of rows is some point's. -/
theorem idx_onto : ∀ q0 : Fin 25, ∃ t : Fin cfg2.N, win2_2.index t = ![q0.val, 0] :=
  (by decide +kernel : ∀ q0 : Fin 25, ∃ t : Fin grid2.N, win2_2.index t = ![q0.val, 0])

/-- The result array after the call: the whole product of the two arrays the call found. -/
theorem out (c : Dev nD) : (dat2 V c).arrAt 2 cfg2.N
    = Cert.Spec.dense (V c main_v45 : S100000x64.Idx → EReal) (V c main_arg4 : S64x64.Idx → EReal) :=
  (dat2 V c).arrAt_eq_of_cover 2 _ (fun t _ => flushed_eq V c t) fun i => by
    have hi0 : (i 0).val < 100000 := (i 0).isLt
    have hi1 : (i 1).val < 64 := (i 1).isLt
    obtain ⟨t, ht⟩ := idx_onto ⟨(i 0).val / 4000, by omega⟩
    have q0 : win2_2.index t (0 : Fin 2) = (i 0).val / 4000 := congrFun ht 0
    have q1 : win2_2.index t (1 : Fin 2) = 0 := congrFun ht 1
    refine ⟨t, flush2_2 t, ?_⟩
    rw [mem_blk]
    intro a
    match a with
    | ⟨0, _⟩ => show win2_2.index t (0 : Fin 2) * 4000 ≤ (i 0).val ∧ (i 0).val < win2_2.index t (0 : Fin 2) * 4000 + 4000; omega
    | ⟨1, _⟩ => show win2_2.index t (1 : Fin 2) * 64 ≤ (i 1).val ∧ (i 1).val < win2_2.index t (1 : Fin 2) * 64 + 64; omega

end Cert.KernelIdeal.Region2

end
-- ==== Proof.Region3.lean ====
import proofs.«151041_j62637803045081_1_alg».proof.Proof.Gen.KernelIdeal.Frame
import proofs.«151041_j62637803045081_1_alg».proof.Proof.Spec
import Idealize.ShloMosaic.Lib.Pipeline.Value
import Idealize.ShloMosaic.Lib.ValueIdx

/-!
# Region3: a bias row added and the positive part kept, 4000 rows at a time

At grid point `t` the body reads rows `4000 t … 4000 t + 3999` of the matrix and the one-row bias matrix, adds the
bias row to every row and keeps the larger of each entry and zero, and writes the block to the same rows of the
result.  Entry `(p, q)` of the block is `max (X (4000 t + p, q) + Y (0, q)) 0`, the biased rectifier of the whole
arrays at that position; the 25 blocks cover the result, so the result array ends as the biased rectifier of the two
arrays the call found — whatever those are (`V` is a parameter).
-/

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at `(p, q)`: the entry plus the bias row's entry `q`, or zero if that is larger. -/
theorem pay_apply (x0 : Vec Ideal S4000x64 .f32) (x1 : Vec Ideal S1x64 .f32) (p : Fin 4000) (q : Fin 64) :
    k3_pay1 (F := Ideal) x0 x1 (ix2 p q) = max (x0 (ix2 p q) + x1 (ix2 (0 : Fin 1) q)) 0 := by
  unfold k3_pay1
  show max ((shapeCast S4000x64 x0 shapeCasts_S4000x64_S4000x64) (ix2 p q)
      + (broadcastTo S4000x64 (shapeCast S1x64 x1 shapeCasts_S1x64_S1x64) broadcasts_S1x64_S4000x64) (ix2 p q))
    (Ideal.ofBits .f32 0x00000000#32) = _
  rw [shapeCast_self, Cert.LibRows.broadcastTo_oneRow_apply, Ideal.ofBits_zero_f32]

/-- The printed index maps over the grid: the matrix and the result move one block of rows per point, the bias row
    stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 25 :=
  (by decide +kernel : ∀ t : Fin grid3.N, _)

/-- The matrix block at point `t`, read at `(p, k)`: the array's entry `(4000 t + p, k)`, named by its coordinates. -/
theorem left_apply (c : Dev nD) (t : Fin cfg3.N) (p : Fin 4000) (k : Fin 64) (i : S100000x64.Idx)
    (h0 : (i 0).val = t.val * 4000 + p.val) (h1 : (i 1).val = k.val) :
    (iblk3 V c 0 t : Vec Ideal S4000x64 .f32) (ix2 p k) = (V c main_v59 : S100000x64.Idx → EReal) i := by
  obtain ⟨e0, e1, -, -, -, -, -⟩ := idx_facts t
  unfold iblk3
  rw [View.read_apply]
  show V c main_v59 _ = V c main_v59 _
  congr 1
  funext a
  apply Fin.ext
  match a with
  | ⟨0, _⟩ => show win3_0.index t (0 : Fin 2) * 4000 + 1 * p.val = (i 0).val; rw [e0, h0]; omega
  | ⟨1, _⟩ => show win3_0.index t (1 : Fin 2) * 64 + 1 * k.val = (i 1).val; rw [e1, h1]; omega

/-- The bias block at any point is the whole one-row matrix. -/
theorem row_apply (c : Dev nD) (t : Fin cfg3.N) (q : Fin 64) :
    (iblk3 V c 1 t : Vec Ideal S1x64 .f32) (ix2 (0 : Fin 1) q) = (V c main_v60 : S1x64.Idx → EReal) (ix2 (0 : Fin 1) q) := by
  obtain ⟨-, -, e0, e1, -, -, -⟩ := idx_facts t
  unfold iblk3
  rw [View.read_apply]
  show V c main_v60 _ = V c main_v60 _
  congr 1
  funext a
  apply Fin.ext
  match a with
  | ⟨0, _⟩ => show win3_1.index t (0 : Fin 2) * 1 + 1 * 0 = 0; rw [e0]
  | ⟨1, _⟩ => show win3_1.index t (1 : Fin 2) * 64 + 1 * q.val = q.val; rw [e1]; omega

/-- What the body leaves at `(p, q)` of its block is the biased rectifier's entry at that block position. -/
theorem point_eq (c : Dev nD) (t : Fin cfg3.N) (j : S4000x64.Idx) :
    k3_pay1 (F := Ideal) (iblk3 V c 0 t) (iblk3 V c 1 t) j
      = Cert.LibAffine.biasRelu (V c main_v59 : S100000x64.Idx → EReal) (V c main_v60 : S1x64.Idx → EReal)
          (((cfg3.win 2).blk t).view.emb j) := by
  obtain ⟨p, q, rfl⟩ : ∃ (p : Fin 4000) (q : Fin 64), j = ix2 p q := ⟨j 0, j 1, eq_ix2 j⟩
  obtain ⟨-, -, -, -, e0, e1, ht⟩ := idx_facts t
  refine (pay_apply (iblk3 V c 0 t) (iblk3 V c 1 t) p q).trans ?_
  have hr : ((((cfg3.win 2).blk t).view.emb (ix2 p q) : S100000x64.Idx) 0).val = t.val * 4000 + p.val := by
    show win3_2.index t (0 : Fin 2) * 4000 + 1 * p.val = _; rw [e0]; omega
  have hc : ((((cfg3.win 2).blk t).view.emb (ix2 p q) : S100000x64.Idx) 1).val = q.val := by
    show win3_2.index t (1 : Fin 2) * 64 + 1 * q.val = _; rw [e1]; omega
  have hi : (((cfg3.win 2).blk t).view.emb (ix2 p q) : S100000x64.Idx)
      = ix2 (⟨t.val * 4000 + p.val, by have := p.isLt; omega⟩ : Fin 100000) q :=
    funext fun a => Fin.ext (by
      match a with
      | ⟨0, _⟩ => exact hr
      | ⟨1, _⟩ => exact hc)
  rw [hi, Cert.LibAffine.biasRelu_apply,
    left_apply V c t p q (ix2 (⟨t.val * 4000 + p.val, by have := p.isLt; omega⟩ : Fin 100000) q) rfl rfl,
    row_apply V c t q]

/-- What point `t` writes back is block `t` of the biased rectifier. -/
theorem flushed_eq (c : Dev nD) (t : Fin cfg3.N) :
    (dat3 V c).flushed 2 t = ((cfg3.win 2).blk t).view.read (Elt Ideal)
      (Cert.LibAffine.biasRelu (V c main_v59 : S100000x64.Idx → EReal) (V c main_v60 : S1x64.Idx → EReal)) := by
  show (cfg3.win 2).cut (grid3.coords t) ((dat3 V c).after 2 t) = _
  rw [after3_2]
  unfold out3_2
  rw [View.canon_unit_zero hz]
  simp only [View.ld_unit_zero (S := S4000x64) hz, View.ld_unit_zero (S := S1x64) hz]
  funext j
  exact point_eq V c t j

/-- An index of the result is in point `t`'s block iff each coordinate is in the block's range on its axis. -/
theorem mem_blk (t : Fin cfg3.N) (i : S100000x64.Idx) :
    i ∈ ((cfg3.win 2).blk t).view.set ↔ ∀ a : Fin 2, win3_2.index t a * S4000x64.size a ≤ (i a).val ∧ (i a).val < win3_2.index t a * S4000x64.size a + S4000x64.size a := by
  show i ∈ ((View.whole main_v61).slice (win3_2.rect t)).set ↔ _
  rw [View.set_slice_whole, Rect.mem_set_unit]
  exact Iff.rfl

/-- Every block of rows is some point's. -/
theorem idx_onto : ∀ q0 : Fin 25, ∃ t : Fin cfg3.N, win3_2.index t = ![q0.val, 0] :=
  (by decide +kernel : ∀ q0 : Fin 25, ∃ t : Fin grid3.N, win3_2.index t = ![q0.val, 0])

/-- The result array after the call: the biased rectifier of the two arrays the call found. -/
theorem out (c : Dev nD) : (dat3 V c).arrAt 2 cfg3.N
    = Cert.LibAffine.biasRelu (V c main_v59 : S100000x64.Idx → EReal) (V c main_v60 : S1x64.Idx → EReal) :=
  (dat3 V c).arrAt_eq_of_cover 2 _ (fun t _ => flushed_eq V c t) fun i => by
    have hi0 : (i 0).val < 100000 := (i 0).isLt
    have hi1 : (i 1).val < 64 := (i 1).isLt
    obtain ⟨t, ht⟩ := idx_onto ⟨(i 0).val / 4000, by omega⟩
    have q0 : win3_2.index t (0 : Fin 2) = (i 0).val / 4000 := congrFun ht 0
    have q1 : win3_2.index t (1 : Fin 2) = 0 := congrFun ht 1
    refine ⟨t, flush3_2 t, ?_⟩
    rw [mem_blk]
    intro a
    match a with
    | ⟨0, _⟩ => show win3_2.index t (0 : Fin 2) * 4000 ≤ (i 0).val ∧ (i 0).val < win3_2.index t (0 : Fin 2) * 4000 + 4000; omega
    | ⟨1, _⟩ => show win3_2.index t (1 : Fin 2) * 64 ≤ (i 1).val ∧ (i 1).val < win3_2.index t (1 : Fin 2) * 64 + 64; omega

end Cert.KernelIdeal.Region3

end
-- ==== Proof.Net.lean ====
import proofs.«151041_j62637803045081_1_alg».proof.Proof.Stages
import proofs.«151041_j62637803045081_1_alg».proof.Proof.Spec

/-!
# The two-layer network as one function of the six argument arrays

One layer: the product of the features with the weight matrix, its rows sent along the edges of the graph, the bias
row added and the positive part kept.  The network is two layers over the same graph.
-/

noncomputable section

namespace Cert.KernelIdeal.Net

open Cert.KernelIdeal Cert.KernelIdeal.Gen Idealize.ShloMosaic

/-- A bias vector as a one-row matrix. -/
def row (b : FVec Ideal S64 .f32) : FVec Ideal S1x64 .f32 := shapeCast S1x64 b shapeCasts_S64_S1x64

/-- One layer over the graph with source list `s`, target list `d` and edge weights `w`. -/
def layer {k : ℕ} (s d : Stages.Arr S3300000 .i32) (w : FVec Ideal S3300000 .f32)
    (x : (⟨2, ![100000, k]⟩ : Shape).Idx → EReal) (W : (⟨2, ![k, 64]⟩ : Shape).Idx → EReal)
    (b : FVec Ideal S64 .f32) : FVec Ideal S100000x64 .f32 :=
  Cert.LibAffine.biasRelu (Stages.send s d w (Cert.Spec.dense x W)) (row b)

/-- The network: two layers over the graph the edge table `e` gives. -/
def G (x : FVec Ideal S100000x128 .f32) (e : Stages.Arr S2x3200000 .i32) (w1 : FVec Ideal S128x64 .f32)
    (b1 : FVec Ideal S64 .f32) (w2 : FVec Ideal S64x64 .f32) (b2 : FVec Ideal S64 .f32) : FVec Ideal S100000x64 .f32 :=
  layer (Stages.src e) (Stages.dst e) (Stages.nrm (Stages.src e) (Stages.dst e))
    (layer (Stages.src e) (Stages.dst e) (Stages.nrm (Stages.src e) (Stages.dst e)) x w1 b1) w2 b2

end Cert.KernelIdeal.Net

end
-- ==== Proof.KValue.lean ====
import proofs.«151041_j62637803045081_1_alg».proof.Proof.Gen.KernelIdeal.Frame
import proofs.«151041_j62637803045081_1_alg».proof.Proof.KHost
import proofs.«151041_j62637803045081_1_alg».proof.Proof.Region0
import proofs.«151041_j62637803045081_1_alg».proof.Proof.Region1
import proofs.«151041_j62637803045081_1_alg».proof.Proof.Region2
import proofs.«151041_j62637803045081_1_alg».proof.Proof.Region3
import proofs.«151041_j62637803045081_1_alg».proof.Proof.Net

/-!
# What the kernel program's result buffer holds: the network of the argument arrays

The run's fold of the buffers, boundary by boundary (`W3` … `W9` of the frame): at the first call the edge arrays hold
the source list, target list and weights of the argument's edge table and the arguments are as launched; the first
call leaves the product `x · W1`; the host operations send its rows along the edges and lay the bias out as a row; the
second call leaves the first layer; the third its product with `W2`; the host operations send that along the edges;
the fourth call leaves the second layer.  A buffer a call or a stretch does not write is carried over.
-/

set_option maxRecDepth 16384

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The argument arrays as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-- The graph of the launch's edge table. -/
abbrev gs := Stages.src (a1 m c)
abbrev gd := Stages.dst (a1 m c)
abbrev gw := Stages.nrm (gs m c) (gd m c)

/-! ## At the first call -/

theorem w3_v3 : W3 m ρ c (Proc.devRef .tc main_v3) = gs m c := KHost.pre_src (W0 m ρ c)
theorem w3_v6 : W3 m ρ c (Proc.devRef .tc main_v6) = gd m c := KHost.pre_dst (W0 m ρ c)
theorem w3_v29 : W3 m ρ c (Proc.devRef .tc main_v29) = gw m c := KHost.pre_nrm (W0 m ρ c)
theorem w3_arg0 : W3 m ρ c (Proc.devRef .tc main_arg0) = a0 m c := KHost.pre_arg0 (W0 m ρ c)
theorem w3_arg2 : W3 m ρ c (Proc.devRef .tc main_arg2) = a2 m c := KHost.pre_arg2 (W0 m ρ c)
theorem w3_arg3 : W3 m ρ c (Proc.devRef .tc main_arg3) = a3 m c := KHost.pre_arg3 (W0 m ρ c)
theorem w3_arg4 : W3 m ρ c (Proc.devRef .tc main_arg4) = a4 m c := KHost.pre_arg4 (W0 m ρ c)
theorem w3_arg5 : W3 m ρ c (Proc.devRef .tc main_arg5) = a5 m c := KHost.pre_arg5 (W0 m ρ c)

/-! ## After the first call: the first product -/

theorem w4_v30 : W4 m ρ c (Proc.devRef .tc main_v30) = Cert.Spec.dense (a0 m c) (a2 m c) := by
  refine (W4_arr m ρ c 2).trans ((Region0.out (V3 m ρ) c).trans ?_)
  rw [show V3 m ρ c main_arg0 = a0 m c from w3_arg0 m ρ c, show V3 m ρ c main_arg2 = a2 m c from w3_arg2 m ρ c]
theorem w4_v3 : W4 m ρ c (Proc.devRef .tc main_v3) = gs m c := (W4_of_ne m ρ c main_v3 (by decide)).trans (w3_v3 m ρ c)
theorem w4_v6 : W4 m ρ c (Proc.devRef .tc main_v6) = gd m c := (W4_of_ne m ρ c main_v6 (by decide)).trans (w3_v6 m ρ c)
theorem w4_v29 : W4 m ρ c (Proc.devRef .tc main_v29) = gw m c := (W4_of_ne m ρ c main_v29 (by decide)).trans (w3_v29 m ρ c)
theorem w4_arg3 : W4 m ρ c (Proc.devRef .tc main_arg3) = a3 m c := (W4_of_ne m ρ c main_arg3 (by decide)).trans (w3_arg3 m ρ c)
theorem w4_arg4 : W4 m ρ c (Proc.devRef .tc main_arg4) = a4 m c := (W4_of_ne m ρ c main_arg4 (by decide)).trans (w3_arg4 m ρ c)
theorem w4_arg5 : W4 m ρ c (Proc.devRef .tc main_arg5) = a5 m c := (W4_of_ne m ρ c main_arg5 (by decide)).trans (w3_arg5 m ρ c)

/-! ## At the second call: the product's rows sent along the edges, the bias as a row -/

theorem w5_v43 : W5 m ρ c (Proc.devRef .tc main_v43)
    = Stages.send (gs m c) (gd m c) (gw m c) (Cert.Spec.dense (a0 m c) (a2 m c)) := by
  refine (KHost.mid1_send (W4 m ρ c)).trans ?_
  rw [w4_v3, w4_v6, w4_v29, w4_v30]
theorem w5_v44 : W5 m ρ c (Proc.devRef .tc main_v44) = Net.row (a3 m c) := by
  refine (KHost.mid1_row (W4 m ρ c)).trans ?_
  rw [w4_arg3]; rfl
theorem w5_v3 : W5 m ρ c (Proc.devRef .tc main_v3) = gs m c := (KHost.mid1_v3 (W4 m ρ c)).trans (w4_v3 m ρ c)
theorem w5_v6 : W5 m ρ c (Proc.devRef .tc main_v6) = gd m c := (KHost.mid1_v6 (W4 m ρ c)).trans (w4_v6 m ρ c)
theorem w5_v29 : W5 m ρ c (Proc.devRef .tc main_v29) = gw m c := (KHost.mid1_v29 (W4 m ρ c)).trans (w4_v29 m ρ c)
theorem w5_arg4 : W5 m ρ c (Proc.devRef .tc main_arg4) = a4 m c := (KHost.mid1_arg4 (W4 m ρ c)).trans (w4_arg4 m ρ c)
theorem w5_arg5 : W5 m ρ c (Proc.devRef .tc main_arg5) = a5 m c := (KHost.mid1_arg5 (W4 m ρ c)).trans (w4_arg5 m ρ c)

/-! ## After the second call: the first layer -/

/-- The first layer of the launch's arrays. -/
abbrev y1 := Net.layer (gs m c) (gd m c) (gw m c) (a0 m c) (a2 m c) (a3 m c)

theorem w6_v45 : W6 m ρ c (Proc.devRef .tc main_v45) = y1 m c := by
  refine (W6_arr m ρ c 2).trans ((Region1.out (V5 m ρ) c).trans ?_)
  rw [show V5 m ρ c main_v43 = _ from w5_v43 m ρ c, show V5 m ρ c main_v44 = _ from w5_v44 m ρ c]
  rfl
theorem w6_v3 : W6 m ρ c (Proc.devRef .tc main_v3) = gs m c := (W6_of_ne m ρ c main_v3 (by decide)).trans (w5_v3 m ρ c)
theorem w6_v6 : W6 m ρ c (Proc.devRef .tc main_v6) = gd m c := (W6_of_ne m ρ c main_v6 (by decide)).trans (w5_v6 m ρ c)
theorem w6_v29 : W6 m ρ c (Proc.devRef .tc main_v29) = gw m c := (W6_of_ne m ρ c main_v29 (by decide)).trans (w5_v29 m ρ c)
theorem w6_arg4 : W6 m ρ c (Proc.devRef .tc main_arg4) = a4 m c := (W6_of_ne m ρ c main_arg4 (by decide)).trans (w5_arg4 m ρ c)
theorem w6_arg5 : W6 m ρ c (Proc.devRef .tc main_arg5) = a5 m c := (W6_of_ne m ρ c main_arg5 (by decide)).trans (w5_arg5 m ρ c)

/-! ## After the third call: the second product -/

theorem w7_v46 : W7 m ρ c (Proc.devRef .tc main_v46) = Cert.Spec.dense (y1 m c) (a4 m c) := by
  refine (W7_arr m ρ c 2).trans ((Region2.out (V6 m ρ) c).trans ?_)
  rw [show V6 m ρ c main_v45 = y1 m c from w6_v45 m ρ c, show V6 m ρ c main_arg4 = a4 m c from w6_arg4 m ρ c]
theorem w7_v3 : W7 m ρ c (Proc.devRef .tc main_v3) = gs m c := (W7_of_ne m ρ c main_v3 (by decide)).trans (w6_v3 m ρ c)
theorem w7_v6 : W7 m ρ c (Proc.devRef .tc main_v6) = gd m c := (W7_of_ne m ρ c main_v6 (by decide)).trans (w6_v6 m ρ c)
theorem w7_v29 : W7 m ρ c (Proc.devRef .tc main_v29) = gw m c := (W7_of_ne m ρ c main_v29 (by decide)).trans (w6_v29 m ρ c)
theorem w7_arg5 : W7 m ρ c (Proc.devRef .tc main_arg5) = a5 m c := (W7_of_ne m ρ c main_arg5 (by decide)).trans (w6_arg5 m ρ c)

/-! ## At the fourth call, and after it -/

theorem w8_v59 : W8 m ρ c (Proc.devRef .tc main_v59)
    = Stages.send (gs m c) (gd m c) (gw m c) (Cert.Spec.dense (y1 m c) (a4 m c)) := by
  refine (KHost.mid3_send (W7 m ρ c)).trans ?_
  rw [w7_v3, w7_v6, w7_v29, w7_v46]
theorem w8_v60 : W8 m ρ c (Proc.devRef .tc main_v60) = Net.row (a5 m c) := by
  refine (KHost.mid3_row (W7 m ρ c)).trans ?_
  rw [w7_arg5]; rfl

/-- The result buffer after the run: the network of the argument arrays as launched. -/
theorem result : W9 m ρ c (Proc.devRef .tc main_v61)
    = Net.G (a0 m c) (a1 m c) (a2 m c) (a3 m c) (a4 m c) (a5 m c) := by
  refine (W9_arr m ρ c 2).trans ((Region3.out (V8 m ρ) c).trans ?_)
  rw [show V8 m ρ c main_v59 = _ from w8_v59 m ρ c, show V8 m ρ c main_v60 = _ from w8_v60 m ρ c]
  rfl

end Cert.KernelIdeal.KValue

end
-- ==== Proof.RefOps.lean ====
import proofs.«151041_j62637803045081_1_alg».proof.Proof.Gen.ReferenceIdeal
import Idealize.ShloMosaic.Lib.StableHlo.Run

/-!
# The reference program as a list of host operations, and its run

The reference has no call of a kernel: its `@main` is 86 host operations in a row (the two library functions it calls,
a select and a rectifier, stand inline at their call sites).  They are listed here in nine consecutive stretches — the
edge lists and degrees; the per-node factor; the edge weights; the first product; the first layer's sending, bias and
sum; its rectifier; the second product; the second layer's sending, bias and sum; its rectifier — and the program is
the stretches run in order.  Every weakly fair execution terminates with each buffer at the fold of the operations
over the launch contents.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge lists with their self loops, the degrees, and where a degree is positive. -/
abbrev opsA0 : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The per-node factor: the inverse square root of the degree where it is positive, zero elsewhere (the called
    select's three operations). -/
abbrev opsA1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The edge weights: the factor at the source times the factor at the target. -/
abbrev opsA2 : List (HloOp τ sig (Elt F)) :=
  [ nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- The first layer's product. -/
abbrev opsD1 : List (HloOp τ sig (Elt F)) :=
  [ binary main_arg0 main_arg2 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- The first layer: the product's rows sent along the edges, plus the bias row laid down every row. -/
abbrev opsB : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x64 ![0, 1] bcast_S3300000x1_S3300000x64_0_1 : (⟨S3300000x1, .f32⟩ : BufTy).Contents (Elt F) → (⟨S3300000x64, .f32⟩ : BufTy).Contents (Elt F)),
    binary main_v37 main_v39 main_v40 (mulf : (⟨S3300000x64, .f32⟩ : BufTy).Contents (Elt F) → (⟨S3300000x64, .f32⟩ : BufTy).Contents (Elt F) → (⟨S3300000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

/-- The first layer's rectifier (the called function's three operations). -/
abbrev opsR1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

/-- The second layer's product. -/
abbrev opsD2 : List (HloOp τ sig (Elt F)) :=
  [ binary main_v47 main_arg4 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- The second layer: the product's rows sent along the edges, plus the bias row laid down every row. -/
abbrev opsC : List (HloOp τ sig (Elt F)) :=
  [ nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x64 ![0, 1] bcast_S3300000x1_S3300000x64_0_1 : (⟨S3300000x1, .f32⟩ : BufTy).Contents (Elt F) → (⟨S3300000x64, .f32⟩ : BufTy).Contents (Elt F)),
    binary main_v55 main_v57 main_v58 (mulf : (⟨S3300000x64, .f32⟩ : BufTy).Contents (Elt F) → (⟨S3300000x64, .f32⟩ : BufTy).Contents (Elt F) → (⟨S3300000x64, .f32⟩ : BufTy).Contents (Elt F)),
    nullary main_cst_11 (constant S_ .f32 0x00000000#32),
    unary main_cst_11 main_v59 (broadcastInDim S100000x64 ![] bcast_S_S100000x64 : (⟨S_, .f32⟩ : BufTy).Contents (Elt F) → (⟨S100000x64, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)) ]

/-- The second layer's rectifier (the called function's three operations). -/
abbrev opsR2 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v64) (TRef.of (T := ⟨S100000x64, .f32⟩) main_call2_v0) (TRef.of (T := ⟨S100000x64, .f32⟩) main_v65) maximumf ]

/-- The whole program: the nine stretches in order. -/
abbrev ops : List (HloOp τ sig (Elt F)) :=
  opsA0 ++ (opsA1 ++ (opsA2 ++ (opsD1 ++ (opsB ++ (opsR1 ++ (opsD2 ++ (opsC ++ opsR2)))))))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- The fold over two stretches run in order is the second stretch's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-! Every operation touches TensorCore buffers only, stretch by stretch. -/

theorem opsA0_sub : (opsA0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub ..⟩
theorem opsA1_sub : (opsA1 : List (HloOp τ sig (Elt F))).Forall fun op => op.bufs ⊆ tcRefs τ sig :=
  ⟨unary_bufs_sub .., unary_bufs_sub .., ternary_bufs_sub ..⟩
theorem opsA2_sub : (opsA2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsD1_sub : (opsD1 : List (HloOp τ sig (Elt F))).Forall fun op => op.bufs ⊆ tcRefs τ sig :=
  binary_bufs_sub ..
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsR1_sub : (opsR1 : List (HloOp τ sig (Elt F))).Forall fun op => op.bufs ⊆ tcRefs τ sig :=
  ⟨nullary_bufs_sub .., unary_bufs_sub .., binary_bufs_sub ..⟩
theorem opsD2_sub : (opsD2 : List (HloOp τ sig (Elt F))).Forall fun op => op.bufs ⊆ tcRefs τ sig :=
  binary_bufs_sub ..
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsR2_sub : (opsR2 : List (HloOp τ sig (Elt F))).Forall fun op => op.bufs ⊆ tcRefs τ sig :=
  ⟨nullary_bufs_sub .., unary_bufs_sub .., binary_bufs_sub ..⟩

theorem ops_sub : (ops : List (HloOp τ sig (Elt F))).Forall fun op => op.bufs ⊆ tcRefs τ sig := by
  refine List.forall_iff_forall_mem.mpr fun op h => ?_
  rcases List.mem_append.mp h with h | h
  · exact List.forall_iff_forall_mem.mp opsA0_sub op h
  rcases List.mem_append.mp h with h | h
  · exact List.forall_iff_forall_mem.mp opsA1_sub op h
  rcases List.mem_append.mp h with h | h
  · exact List.forall_iff_forall_mem.mp opsA2_sub op h
  rcases List.mem_append.mp h with h | h
  · exact List.forall_iff_forall_mem.mp opsD1_sub op h
  rcases List.mem_append.mp h with h | h
  · exact List.forall_iff_forall_mem.mp opsB_sub op h
  rcases List.mem_append.mp h with h | h
  · exact List.forall_iff_forall_mem.mp opsR1_sub op h
  rcases List.mem_append.mp h with h | h
  · exact List.forall_iff_forall_mem.mp opsD2_sub op h
  rcases List.mem_append.mp h with h | h
  · exact List.forall_iff_forall_mem.mp opsC_sub op h
  · exact List.forall_iff_forall_mem.mp opsR2_sub op h

/-- The contents after the whole program, from contents `V`: the stretches folded one after the other. -/
abbrev fin (V : Valuation τ sig (Elt F)) : Valuation τ sig (Elt F) :=
  after opsR2 (after opsC (after opsD2 (after opsR1 (after opsB (after opsD1 (after opsA2 (after opsA1 (after opsA0 V))))))))

theorem after_ops (V : Valuation τ sig (Elt F)) : after ops V = fin V := by
  show after (opsA0 ++ _) V = _
  simp only [after_append]

/-- On every device, from any memory with zero counters: every weakly fair execution of `@main` terminates with each
    buffer at the stretches' fold over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = fin (launchContents m d) (Proc.devRef .tc b) :=
  (θ_run defs _ _).mono (fun _ h d b => (h d b).trans (by rw [after_ops]))
    (run_seq scopedRefs_eq scopedSems_eq defs main (fun _ => ops) main_eq (fun _ => ops_sub) m ρ)

end Cert.ReferenceIdeal.RefRun

end
-- ==== Proof.RefHost.lean ====
import proofs.«151041_j62637803045081_1_alg».proof.Proof.RefOps
import proofs.«151041_j62637803045081_1_alg».proof.Proof.Stages
import proofs.«151041_j62637803045081_1_alg».proof.Proof.LibFoldCat

/-!
# The reference program's nine stretches of host operations, read at a buffer

From any contents `V` of the buffers, one stretch at a time: what the stretch leaves in the buffer it is there for, as
the named step of the graph side of the network (source list, target list, per-node factor, edge weights, rows sent
along the edges) applied to the contents of the buffers it reads, and that every buffer a later stretch reads and
this one does not write holds what it held.
-/

set_option maxRecDepth 16384

noncomputable section

namespace Cert.ReferenceIdeal.RefHost

open Cert.ReferenceIdeal Cert.ReferenceIdeal.Gen Cert.ReferenceIdeal.RefRun Idealize.ShloMosaic Idealize.ShloMosaic.StableHlo

variable (V : Valuation τ sig (Elt Ideal))

/-! ## The edge lists and the degrees -/

theorem a0_src : after opsA0 V (Proc.devRef .tc main_v3) = Cert.KernelIdeal.Stages.src (V (Proc.devRef .tc main_arg1)) := by
  fold_read
  rfl
theorem a0_dst : after opsA0 V (Proc.devRef .tc main_v6) = Cert.KernelIdeal.Stages.dst (V (Proc.devRef .tc main_arg1)) := by
  fold_read
  rfl
theorem a0_pos : after opsA0 V (Proc.devRef .tc main_v12)
    = Cert.KernelIdeal.Stages.pos (Cert.KernelIdeal.Stages.dst (V (Proc.devRef .tc main_arg1))) := by
  fold_read
  rfl
theorem a0_rs : after opsA0 V (Proc.devRef .tc main_v13)
    = Cert.KernelIdeal.Stages.rs (Cert.KernelIdeal.Stages.dst (V (Proc.devRef .tc main_arg1))) := by
  fold_read
  rfl
theorem a0_zero : after opsA0 V (Proc.devRef .tc main_cst_2) = constant (F := Ideal) S_ .f32 0x00000000#32 := by
  fold_read
theorem a0_arg0 : after opsA0 V (Proc.devRef .tc main_arg0) = V (Proc.devRef .tc main_arg0) := by fold_read
theorem a0_arg2 : after opsA0 V (Proc.devRef .tc main_arg2) = V (Proc.devRef .tc main_arg2) := by fold_read
theorem a0_arg3 : after opsA0 V (Proc.devRef .tc main_arg3) = V (Proc.devRef .tc main_arg3) := by fold_read
theorem a0_arg4 : after opsA0 V (Proc.devRef .tc main_arg4) = V (Proc.devRef .tc main_arg4) := by fold_read
theorem a0_arg5 : after opsA0 V (Proc.devRef .tc main_arg5) = V (Proc.devRef .tc main_arg5) := by fold_read

/-! ## The per-node factor -/

theorem a1_dinv : after opsA1 V (Proc.devRef .tc main_v14)
    = select (V (Proc.devRef .tc main_v12)) (V (Proc.devRef .tc main_v13))
        (broadcastInDim S100000 ![] bcast_S_S100000 (V (Proc.devRef .tc main_cst_2))) := by
  fold_read
  rfl
theorem a1_v3 : after opsA1 V (Proc.devRef .tc main_v3) = V (Proc.devRef .tc main_v3) := by fold_read
theorem a1_v6 : after opsA1 V (Proc.devRef .tc main_v6) = V (Proc.devRef .tc main_v6) := by fold_read
theorem a1_arg0 : after opsA1 V (Proc.devRef .tc main_arg0) = V (Proc.devRef .tc main_arg0) := by fold_read
theorem a1_arg2 : after opsA1 V (Proc.devRef .tc main_arg2) = V (Proc.devRef .tc main_arg2) := by fold_read
theorem a1_arg3 : after opsA1 V (Proc.devRef .tc main_arg3) = V (Proc.devRef .tc main_arg3) := by fold_read
theorem a1_arg4 : after opsA1 V (Proc.devRef .tc main_arg4) = V (Proc.devRef .tc main_arg4) := by fold_read
theorem a1_arg5 : after opsA1 V (Proc.devRef .tc main_arg5) = V (Proc.devRef .tc main_arg5) := by fold_read

/-! ## The edge weights -/

theorem a2_nrm : after opsA2 V (Proc.devRef .tc main_v29)
    = Cert.KernelIdeal.Stages.nrmOf (V (Proc.devRef .tc main_v14)) (V (Proc.devRef .tc main_v3)) (V (Proc.devRef .tc main_v6)) := by
  fold_read
  rfl
theorem a2_v3 : after opsA2 V (Proc.devRef .tc main_v3) = V (Proc.devRef .tc main_v3) := by fold_read
theorem a2_v6 : after opsA2 V (Proc.devRef .tc main_v6) = V (Proc.devRef .tc main_v6) := by fold_read
theorem a2_arg0 : after opsA2 V (Proc.devRef .tc main_arg0) = V (Proc.devRef .tc main_arg0) := by fold_read
theorem a2_arg2 : after opsA2 V (Proc.devRef .tc main_arg2) = V (Proc.devRef .tc main_arg2) := by fold_read
theorem a2_arg3 : after opsA2 V (Proc.devRef .tc main_arg3) = V (Proc.devRef .tc main_arg3) := by fold_read
theorem a2_arg4 : after opsA2 V (Proc.devRef .tc main_arg4) = V (Proc.devRef .tc main_arg4) := by fold_read
theorem a2_arg5 : after opsA2 V (Proc.devRef .tc main_arg5) = V (Proc.devRef .tc main_arg5) := by fold_read

/-! ## The first product -/

theorem d1_v30 : after opsD1 V (Proc.devRef .tc main_v30)
    = Host.dotGeneral (F := Ideal) (φ₁ := .f32) (φ₂ := .f32) dot_S100000x128_S128x64_S100000x64_1_0_0_1_n_n none (V (Proc.devRef .tc main_arg0)) (V (Proc.devRef .tc main_arg2)) := by
  fold_read
theorem d1_v3 : after opsD1 V (Proc.devRef .tc main_v3) = V (Proc.devRef .tc main_v3) := by fold_read
theorem d1_v6 : after opsD1 V (Proc.devRef .tc main_v6) = V (Proc.devRef .tc main_v6) := by fold_read
theorem d1_v29 : after opsD1 V (Proc.devRef .tc main_v29) = V (Proc.devRef .tc main_v29) := by fold_read
theorem d1_arg3 : after opsD1 V (Proc.devRef .tc main_arg3) = V (Proc.devRef .tc main_arg3) := by fold_read
theorem d1_arg4 : after opsD1 V (Proc.devRef .tc main_arg4) = V (Proc.devRef .tc main_arg4) := by fold_read
theorem d1_arg5 : after opsD1 V (Proc.devRef .tc main_arg5) = V (Proc.devRef .tc main_arg5) := by fold_read

/-! ## The first layer's sending and bias -/

theorem b_v46 : after opsB V (Proc.devRef .tc main_v46)
    = addf (Cert.KernelIdeal.Stages.send (V (Proc.devRef .tc main_v3)) (V (Proc.devRef .tc main_v6))
          (V (Proc.devRef .tc main_v29)) (V (Proc.devRef .tc main_v30)))
        (broadcastInDim S100000x64 ![0, 1] bcast_S1x64_S100000x64_0_1
          (broadcastInDim S1x64 ![1] bcast_S64_S1x64_1 (V (Proc.devRef .tc main_arg3)))) := by
  fold_read
  rfl
theorem b_v3 : after opsB V (Proc.devRef .tc main_v3) = V (Proc.devRef .tc main_v3) := by fold_read
theorem b_v6 : after opsB V (Proc.devRef .tc main_v6) = V (Proc.devRef .tc main_v6) := by fold_read
theorem b_v29 : after opsB V (Proc.devRef .tc main_v29) = V (Proc.devRef .tc main_v29) := by fold_read
theorem b_arg4 : after opsB V (Proc.devRef .tc main_arg4) = V (Proc.devRef .tc main_arg4) := by fold_read
theorem b_arg5 : after opsB V (Proc.devRef .tc main_arg5) = V (Proc.devRef .tc main_arg5) := by fold_read

/-! ## The first layer's rectifier -/

theorem r1_v47 : after opsR1 V (Proc.devRef .tc main_v47)
    = maximumf (V (Proc.devRef .tc main_v46))
        (broadcastInDim S100000x64 ![] bcast_S_S100000x64 (constant (F := Ideal) S_ .f32 0x00000000#32)) := by
  fold_read
  rfl
theorem r1_v3 : after opsR1 V (Proc.devRef .tc main_v3) = V (Proc.devRef .tc main_v3) := by fold_read
theorem r1_v6 : after opsR1 V (Proc.devRef .tc main_v6) = V (Proc.devRef .tc main_v6) := by fold_read
theorem r1_v29 : after opsR1 V (Proc.devRef .tc main_v29) = V (Proc.devRef .tc main_v29) := by fold_read
theorem r1_arg4 : after opsR1 V (Proc.devRef .tc main_arg4) = V (Proc.devRef .tc main_arg4) := by fold_read
theorem r1_arg5 : after opsR1 V (Proc.devRef .tc main_arg5) = V (Proc.devRef .tc main_arg5) := by fold_read

/-! ## The second product -/

theorem d2_v48 : after opsD2 V (Proc.devRef .tc main_v48)
    = Host.dotGeneral (F := Ideal) (φ₁ := .f32) (φ₂ := .f32) dot_S100000x64_S64x64_S100000x64_1_0_0_1_n_n none (V (Proc.devRef .tc main_v47)) (V (Proc.devRef .tc main_arg4)) := by
  fold_read
theorem d2_v3 : after opsD2 V (Proc.devRef .tc main_v3) = V (Proc.devRef .tc main_v3) := by fold_read
theorem d2_v6 : after opsD2 V (Proc.devRef .tc main_v6) = V (Proc.devRef .tc main_v6) := by fold_read
theorem d2_v29 : after opsD2 V (Proc.devRef .tc main_v29) = V (Proc.devRef .tc main_v29) := by fold_read
theorem d2_arg5 : after opsD2 V (Proc.devRef .tc main_arg5) = V (Proc.devRef .tc main_arg5) := by fold_read

/-! ## The second layer's sending and bias, and its rectifier -/

theorem c_v64 : after opsC V (Proc.devRef .tc main_v64)
    = addf (Cert.KernelIdeal.Stages.send (V (Proc.devRef .tc main_v3)) (V (Proc.devRef .tc main_v6))
          (V (Proc.devRef .tc main_v29)) (V (Proc.devRef .tc main_v48)))
        (broadcastInDim S100000x64 ![0, 1] bcast_S1x64_S100000x64_0_1
          (broadcastInDim S1x64 ![1] bcast_S64_S1x64_1 (V (Proc.devRef .tc main_arg5)))) := by
  fold_read
  rfl

theorem r2_v65 : after opsR2 V (Proc.devRef .tc main_v65)
    = maximumf (V (Proc.devRef .tc main_v64))
        (broadcastInDim S100000x64 ![] bcast_S_S100000x64 (constant (F := Ideal) S_ .f32 0x00000000#32)) := by
  fold_read
  rfl

end Cert.ReferenceIdeal.RefHost

end
-- ==== Proof.NetHost.lean ====
import proofs.«151041_j62637803045081_1_alg».proof.Proof.Net

/-!
# A layer in the host's spelling

A layer written with the host's operations: the contraction, the rows sent along the edges, the bias vector broadcast
to one row and that row laid down every row, the sum, and the maximum with the zero array.  It is the same function as
`Net.layer`: the product is the contraction, the reshape of a vector to one row is its broadcast along axis 1, and the
biased rectifier is the sum followed by the maximum with zero.
-/

noncomputable section

namespace Cert.KernelIdeal.Net

open Cert.KernelIdeal Cert.KernelIdeal.Gen Idealize.ShloMosaic

theorem layer_eq_host {k : ℕ} (s d : Stages.Arr S3300000 .i32) (w : FVec Ideal S3300000 .f32)
    (x : FVec Ideal ⟨2, ![100000, k]⟩ .f32) (W : FVec Ideal ⟨2, ![k, 64]⟩ .f32) (b : FVec Ideal S64 .f32)
    (wf : DotDims.WF ⟨2, ![100000, k]⟩ ⟨2, ![k, 64]⟩ ⟨2, ![100000, 64]⟩ [1] [0] [0] [1] [] [])
    (h1 : (⟨1, ![64]⟩ : Shape).BroadcastsInDim ⟨2, ![1, 64]⟩ ![1])
    (hd : (⟨2, ![1, 64]⟩ : Shape).BroadcastsInDim ⟨2, ![100000, 64]⟩ ![0, 1])
    (hz : (⟨0, ![]⟩ : Shape).BroadcastsInDim ⟨2, ![100000, 64]⟩ ![]) :
    layer s d w x W b
      = maximumf (addf (Stages.send s d w (Host.dotGeneral (⟨[1], [0], [0], [1], [], [], wf⟩ : DotDims _ _ _) none x W))
            (broadcastInDim ⟨2, ![100000, 64]⟩ ![0, 1] hd (broadcastInDim ⟨2, ![1, 64]⟩ ![1] h1 b)))
          (broadcastInDim ⟨2, ![100000, 64]⟩ ![] hz (constant (F := Ideal) ⟨0, ![]⟩ .f32 0x00000000#32)) := by
  unfold layer row
  rw [Cert.LibRows.shapeCast_row_eq_broadcastInDim b shapeCasts_S64_S1x64 h1, Cert.LibAffine.biasRelu_eq_host hd hz,
    Cert.Spec.dense_eq_hostDot wf none x W]

end Cert.KernelIdeal.Net

end
-- ==== Proof.RefValue.lean ====
import proofs.«151041_j62637803045081_1_alg».proof.Proof.RefHost
import proofs.«151041_j62637803045081_1_alg».proof.Proof.NetHost

/-!
# What the reference program's result buffer holds: the network of the argument arrays

The nine stretches chained: the edge arrays hold the source list, target list and weights of the edge table; each layer
is the contraction, the rows sent along the edges, the bias laid out, the sum and the maximum with zero — the layer in
the host's spelling, which is the layer.
-/

set_option maxRecDepth 16384

noncomputable section

namespace Cert.ReferenceIdeal.RefValue

open Cert.ReferenceIdeal Cert.ReferenceIdeal.Gen Cert.ReferenceIdeal.RefRun Cert.ReferenceIdeal.RefHost
open Idealize.ShloMosaic Idealize.ShloMosaic.StableHlo

variable (V : Valuation τ sig (Elt Ideal))

/-- The per-node factor, assembled from its pieces, is the named one; so the weights are the named weights. -/
theorem nrm_pieces (e : Cert.KernelIdeal.Stages.Arr Cert.KernelIdeal.S2x3200000 .i32) :
    Cert.KernelIdeal.Stages.nrmOf
        (select (Cert.KernelIdeal.Stages.pos (Cert.KernelIdeal.Stages.dst e)) (Cert.KernelIdeal.Stages.rs (Cert.KernelIdeal.Stages.dst e))
          (broadcastInDim S100000 ![] bcast_S_S100000 (constant (F := Ideal) S_ .f32 0x00000000#32)))
        (Cert.KernelIdeal.Stages.src e) (Cert.KernelIdeal.Stages.dst e)
      = Cert.KernelIdeal.Stages.nrm (Cert.KernelIdeal.Stages.src e) (Cert.KernelIdeal.Stages.dst e) := rfl

/-- The result buffer after the whole program, from contents `V`: the network of the argument arrays in `V`. -/
theorem result : fin V (Proc.devRef .tc main_v65)
    = Cert.KernelIdeal.Net.G (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  unfold Cert.KernelIdeal.Net.G
  rw [Cert.KernelIdeal.Net.layer_eq_host _ _ _ _ _ _ dot_S100000x64_S64x64_S100000x64_1_0_0_1_n_n_wf bcast_S64_S1x64_1
      bcast_S1x64_S100000x64_0_1 bcast_S_S100000x64,
    Cert.KernelIdeal.Net.layer_eq_host _ _ _ _ _ _ dot_S100000x128_S128x64_S100000x64_1_0_0_1_n_n_wf bcast_S64_S1x64_1
      bcast_S1x64_S100000x64_0_1 bcast_S_S100000x64]
  unfold fin
  rw [r2_v65, c_v64, d2_v48, d2_v3, d2_v6, d2_v29, d2_arg5,
    r1_v47, r1_v3, r1_v6, r1_v29, r1_arg4, r1_arg5,
    b_v46, b_v3, b_v6, b_v29, b_arg4, b_arg5,
    d1_v30, d1_v3, d1_v6, d1_v29, d1_arg3, d1_arg4, d1_arg5,
    a2_nrm, a2_v3, a2_v6, a2_arg0, a2_arg2, a2_arg3, a2_arg4, a2_arg5,
    a1_dinv, a1_v3, a1_v6, a1_arg0, a1_arg2, a1_arg3, a1_arg4, a1_arg5,
    a0_src, a0_dst, a0_pos, a0_rs, a0_zero, a0_arg0, a0_arg2, a0_arg3, a0_arg4, a0_arg5,
    nrm_pieces]
  rfl

/-! ## No operation writes an argument -/

theorem fin_arg0 : fin V (Proc.devRef .tc main_arg0) = V (Proc.devRef .tc main_arg0) := by unfold fin; fold_read
theorem fin_arg1 : fin V (Proc.devRef .tc main_arg1) = V (Proc.devRef .tc main_arg1) := by unfold fin; fold_read
theorem fin_arg2 : fin V (Proc.devRef .tc main_arg2) = V (Proc.devRef .tc main_arg2) := by unfold fin; fold_read
theorem fin_arg3 : fin V (Proc.devRef .tc main_arg3) = V (Proc.devRef .tc main_arg3) := by unfold fin; fold_read
theorem fin_arg4 : fin V (Proc.devRef .tc main_arg4) = V (Proc.devRef .tc main_arg4) := by unfold fin; fold_read
theorem fin_arg5 : fin V (Proc.devRef .tc main_arg5) = V (Proc.devRef .tc main_arg5) := by unfold fin; fold_read

end Cert.ReferenceIdeal.RefValue

end
-- ==== Proof.lean ====
/- The proof of `Cert.Claim`: a two-layer graph convolution whose two products and two bias-and-rectifier steps are
   kernel calls, against the same network written with host operations only.

   At the exact instance both programs compute one function of the six argument arrays (`Net.G`): per layer, the
   product of the features with the weight matrix, its rows sent along the edges of the graph with a weight per edge
   and summed at each target node, the bias row added, the positive part kept.  The graph side (edge lists with self
   loops, degrees, edge weights, sending) is the same text in both programs and is carried as named functions that
   are never opened.  What differs: a product is a kernel call over 25 blocks of rows on one side (a matrix product
   into a zero accumulator, `Region0`, `Region2`) and the host's contraction on the other — the same sum over the
   contracted coordinate —; the bias step is a kernel call on one side (`Region1`, `Region3`) and a broadcast, a sum
   and a maximum with the zero array on the other — the same `max (x + b) 0` entry by entry, the bias vector reshaped to
   one row or broadcast to one row.  No law used needs the inputs finite.

   The kernel program's run is the frame's launch with the result buffer kept (`KRun`), read boundary by boundary
   (`KValue`); the reference's run is its list of operations folded stretch by stretch (`RefOps`, `RefHost`,
   `RefValue`).  The ideal pass rewrote nothing, so `preserves` is trivial. -/
import proofs.«151041_j62637803045081_1_alg».proof.Defs
import proofs.«151041_j62637803045081_1_alg».proof.Proof.Gen.Kernel
import proofs.«151041_j62637803045081_1_alg».proof.Proof.Gen.Kernel.Skeleton
import proofs.«151041_j62637803045081_1_alg».proof.Proof.Gen.Kernel.Launch
import proofs.«151041_j62637803045081_1_alg».proof.Proof.Gen.Kernel.Points
import proofs.«151041_j62637803045081_1_alg».proof.Proof.Gen.Kernel.Frame
import proofs.«151041_j62637803045081_1_alg».proof.Proof.Gen.KernelIdeal
import proofs.«151041_j62637803045081_1_alg».proof.Proof.Gen.KernelIdeal.Skeleton
import proofs.«151041_j62637803045081_1_alg».proof.Proof.Gen.KernelIdeal.Launch
import proofs.«151041_j62637803045081_1_alg».proof.Proof.Gen.KernelIdeal.Points
import proofs.«151041_j62637803045081_1_alg».proof.Proof.Gen.KernelIdeal.Frame
import proofs.«151041_j62637803045081_1_alg».proof.Proof.Gen.ReferenceIdeal
import proofs.«151041_j62637803045081_1_alg».proof.Proof.Gen.Pre_finite_inputs
import proofs.«151041_j62637803045081_1_alg».proof.Proof.KRun
import proofs.«151041_j62637803045081_1_alg».proof.Proof.KValue
import proofs.«151041_j62637803045081_1_alg».proof.Proof.RefOps
import proofs.«151041_j62637803045081_1_alg».proof.Proof.RefValue
import Idealize.ShloMosaic.Adequacy
import Idealize.ShloMosaic.Init

noncomputable section

namespace Cert.Proof

open Idealize.ShloMosaic Idealize.ShloMosaic.TcCoe Idealize.SL.Sem

/-- The kernel program at the word level runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs, and none of its operations writes an argument. -/
theorem frame_ri : Cert.frame_ReferenceIdeal := fun m ρ _ =>
  (θ_run Cert.ReferenceIdeal.defs _ _).mono
    (fun r h c =>
      ⟨(h c Cert.ReferenceIdeal.main_arg0).trans (Cert.ReferenceIdeal.RefValue.fin_arg0 _),
       (h c Cert.ReferenceIdeal.main_arg1).trans (Cert.ReferenceIdeal.RefValue.fin_arg1 _),
       (h c Cert.ReferenceIdeal.main_arg2).trans (Cert.ReferenceIdeal.RefValue.fin_arg2 _),
       (h c Cert.ReferenceIdeal.main_arg3).trans (Cert.ReferenceIdeal.RefValue.fin_arg3 _),
       (h c Cert.ReferenceIdeal.main_arg4).trans (Cert.ReferenceIdeal.RefValue.fin_arg4 _),
       (h c Cert.ReferenceIdeal.main_arg5).trans (Cert.ReferenceIdeal.RefValue.fin_arg5 _)⟩)
    (Cert.ReferenceIdeal.RefRun.run (F := Ideal) m ρ)

/-- The ideal pass rewrote no operation. -/
theorem preserves : Cert.preserves_Kernel_KernelIdeal := trivial

/-- Both idealized programs end with the network of the argument arrays in the result buffer; the arguments agree. -/
theorem algebraic : Cert.algebraic_KernelIdeal_ReferenceIdeal := by
  intro m ρ m' ρ' _ hagree
  refine ⟨fun c => Cert.KernelIdeal.Net.G (Cert.KernelIdeal.KValue.a0 m c) (Cert.KernelIdeal.KValue.a1 m c)
      (Cert.KernelIdeal.KValue.a2 m c) (Cert.KernelIdeal.KValue.a3 m c) (Cert.KernelIdeal.KValue.a4 m c)
      (Cert.KernelIdeal.KValue.a5 m c), ?_, ?_⟩
  · exact (θ_run Cert.KernelIdeal.defs _ _).mono
      (fun r h c => ⟨(h c).1.trans (Cert.KernelIdeal.KValue.result m ρ c), (h c).2⟩)
      (Cert.KernelIdeal.KRun.run (F := Ideal) m ρ)
  · refine (θ_run Cert.ReferenceIdeal.defs _ _).mono (fun r h c => ?_) (Cert.ReferenceIdeal.RefRun.run (F := Ideal) m' ρ')
    obtain ⟨e0, e1, e2, e3, e4, e5⟩ := hagree c
    refine ⟨(h c Cert.ReferenceIdeal.main_v65).trans ((Cert.ReferenceIdeal.RefValue.result _).trans ?_),
      (h c Cert.ReferenceIdeal.main_arg0).trans (Cert.ReferenceIdeal.RefValue.fin_arg0 _),
      (h c Cert.ReferenceIdeal.main_arg1).trans (Cert.ReferenceIdeal.RefValue.fin_arg1 _),
      (h c Cert.ReferenceIdeal.main_arg2).trans (Cert.ReferenceIdeal.RefValue.fin_arg2 _),
      (h c Cert.ReferenceIdeal.main_arg3).trans (Cert.ReferenceIdeal.RefValue.fin_arg3 _),
      (h c Cert.ReferenceIdeal.main_arg4).trans (Cert.ReferenceIdeal.RefValue.fin_arg4 _),
      (h c Cert.ReferenceIdeal.main_arg5).trans (Cert.ReferenceIdeal.RefValue.fin_arg5 _)⟩
    show Cert.KernelIdeal.Net.G (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
